-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩

abbrev nBuf : Space → Nat
  | .hbm => 48
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S1x64, .f32⟩
  | .hbm, ⟨26, _⟩ => ⟨S1x64, .f32⟩
  | .hbm, ⟨27, _⟩ => ⟨S100000x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S5000x64 : S1x64.Broadcasts S5000x64
  reduces_S5000x64_S64 : S5000x64.Reduces [0] S64
  bcast_S_S1x64 : S_.BroadcastsInDim S1x64 (![] : Fin 0 → Fin S1x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .i32⟩
  | .hbm, ⟨43, _⟩ => ⟨S_, .f32⟩
  | .hbm, ⟨44, _⟩ => ⟨S64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_cst_2 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_cst_3 : Ref sig .tc := ⟨.hbm, 59, rfl⟩
abbrev main_call1_v12 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_cst : Ref sig .tc := ⟨.hbm, 81, rfl⟩
abbrev main_call2_v0 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R0Defs.lean ====
/-
  The first pallas_call (the perceptron and the column statistics, 20 grid points of 5000 rows) as a pipeline:
  what its frame proof is stated over.  The body branches twice on the grid position: at the FIRST point it zeroes the
  two scratch accumulators, at the LAST point it copies them to the two statistics outputs; so a point is in one of three
  cases (first / middle / last).  The two statistics windows are idle — not stored into, not written back — except at
  the last point.  Here: each window's block at a point as the region finds it, the two conditions in closed form, where
  the statistics windows are idle, the staging and scratch memrefs by name, and the class invariant spelt buffer by buffer.
-/
import proofs.«107690_j12764642804257_1_alg».proof.Proof.Gen.Kernel.Launch
import proofs.«107690_j12764642804257_1_alg».proof.Proof.Gen.Kernel.Skeleton
import proofs.«107690_j12764642804257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's two conditions -/

/-- "This is the first grid point", as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point". -/
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point the body stores nothing into statistics window 7 and the pipeline does not write it back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is live. -/
theorem liveAt0_7_last : ∀ t : Fin cfg0.N, cond0_1 (grid0.coords t) → cfg0.idle 7 (grid0.coords t) = false := by decide +kernel
/-- Off the last point the body stores nothing into statistics window 8 and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point it is live. -/
theorem liveAt0_8_last : ∀ t : Fin cfg0.N, cond0_1 (grid0.coords t) → cfg0.idle 8 (grid0.coords t) = false := by decide +kernel

/-! ## The memrefs the body is called with -/

/-- One staging buffer of each output window, through which its contents are stated. -/
abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two scratch accumulators: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The scoped buffers that are neither this call's staging buffers nor its scratch: the other call's staging buffers, each
    whole at some contents, which this region never touches. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_eq]; simp only [scM0_0, scM0_1, owns_whole]; try rfl

end Cert.Kernel.Hand

end
-- ==== Proof.K.R0RunA.lean ====
/-
  The body of the first pallas_call run whole at the FIRST grid point (the accumulators are zeroed, then the point's sums added; the two statistics windows are left untouched).
  On whole staging memrefs — the six inputs at their contents, the perceptron output's at anything, the two statistics outputs' at contents handed back untouched,
  the two scratch accumulators at anything — the body runs to a continuation that holds the inputs as they
  were and each buffer it stored into with its stores written, as a list of pieces (last store first) that the run itself finds.
-/
import proofs.«107690_j12764642804257_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ owns (c : Thread nD τ) arg8 fullShare xi7
            ∗ owns (c : Thread nD τ) arg9 fullShare xi8
            ∗ (∃ d, owns (c : Thread nD τ) arg10 fullShare d)
            ∗ (∃ d, owns (c : Thread nD τ) arg11 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ owns (c : Thread nD τ) arg8 fullShare xi7
              ∗ owns (c : Thread nD τ) arg9 fullShare xi8
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.R0RunB.lean ====
/-
  The body of the first pallas_call run whole at a MIDDLE grid point (the point's sums are added to the accumulators; the two statistics windows are left untouched).
  On whole staging memrefs — the six inputs at their contents, the perceptron output's at anything, the two statistics outputs' at contents handed back untouched,
  the two scratch accumulators at what the point before left — the body runs to a continuation that holds the inputs as they
  were and each buffer it stored into with its stores written, as a list of pieces (last store first) that the run itself finds.
-/
import proofs.«107690_j12764642804257_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ owns (c : Thread nD τ) arg8 fullShare xi7
            ∗ owns (c : Thread nD τ) arg9 fullShare xi8
            ∗ owns (c : Thread nD τ) arg10 fullShare xs0
            ∗ owns (c : Thread nD τ) arg11 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ owns (c : Thread nD τ) arg8 fullShare xi7
              ∗ owns (c : Thread nD τ) arg9 fullShare xi8
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.R0RunC.lean ====
/-
  The body of the first pallas_call run whole at the LAST grid point (the point's sums are added to the accumulators, which are then copied into the two statistics windows).
  On whole staging memrefs — the six inputs at their contents, the perceptron output's at anything, the two statistics outputs' at anything,
  the two scratch accumulators at what the point before left — the body runs to a continuation that holds the inputs as they
  were and each buffer it stored into with its stores written, as a list of pieces (last store first) that the run itself finds.
-/
import proofs.«107690_j12764642804257_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ (∃ d, owns (c : Thread nD τ) arg9 fullShare d)
            ∗ owns (c : Thread nD τ) arg10 fullShare xs0
            ∗ owns (c : Thread nD τ) arg11 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R0Frame.lean ====
/-
  The first pallas_call's proof data and body obligation.  What each of the three cases leaves in the perceptron output's
  block, in the two statistics outputs and in the two scratch accumulators; the ACCUMULATION — what those five hold after the
  body at each grid position, the accumulators at a position read at what the position before left —; the region invariant
  that carries the two accumulators from one point to the next; the proof data; and the body obligation at every point.
-/
import proofs.«107690_j12764642804257_1_alg».proof.Proof.K.R0RunA
import proofs.«107690_j12764642804257_1_alg».proof.Proof.K.R0RunB
import proofs.«107690_j12764642804257_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- At the first point the stores into the perceptron output's block cover it; what they leave there. -/
theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point the stores into the sum accumulator cover it; what they leave there. -/
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point the stores into the square-sum accumulator cover it; what they leave there. -/
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At a middle point the stores into the perceptron output's block cover it; what they leave there. -/
theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point the stores into the sum accumulator cover it; what they leave there. -/
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point the stores into the square-sum accumulator cover it; what they leave there. -/
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the stores into the perceptron output's block cover it; what they leave there. -/
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the store into the column-sum output covers it; what it leaves. -/
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the store into the column-square-sum output covers it; what it leaves. -/
theorem cover0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
def out0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the stores into the sum accumulator cover it; what they leave there. -/
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the stores into the square-sum accumulator cover it; what they leave there. -/
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Frame
-- the TensorCore's buffer contents when the region is entered
variable (V : (c : Dev nD) → (b : Ref sig .tc) → Buf (Elt F) ((c : Thread nD τ).loc b))

/-! ## What the outputs and the accumulators hold after each point -/

/-- THE ACCUMULATION: after the body at position `n`, the perceptron output's block, the two statistics outputs' buffers, and the
    two scratch accumulators (in this order).  Position 0 is the first-point case; position 19 the last-point case, the others the
    middle case, each run on the accumulators as position `n − 1` left them.  Off the last point the statistics outputs are idle:
    their components are placeholders nothing reads. -/
def outsAt0 (c : Dev nD) : (n : ℕ) → n < cfg0.N → Vec F S5000x64 .f32 × Vec F S1x64 .f32 × Vec F S1x64 .f32 × Vec F S1x64 .f32 × Vec F S1x64 .f32
  | 0, hn =>
    (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     VO0_7.read (Elt F) VO0_7.junk, VO0_8.read (Elt F) VO0_8.junk,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 19 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       VO0_7.read (Elt F) VO0_7.junk, VO0_8.read (Elt F) VO0_8.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t),
     VO0_7.read (Elt F) VO0_7.junk, VO0_8.read (Elt F) VO0_8.junk,
     sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t),
     sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case over what the point before left in the accumulators. -/
theorem outsAt0_B (c : Dev nD) (t : Fin cfg0.N) (h0 : ¬t.val = 0) (h1 : ¬t.val = 19) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     VO0_7.read (Elt F) VO0_7.junk, VO0_8.read (Elt F) VO0_8.junk,
     sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case over what the point before left in the accumulators. -/
theorem outsAt0_C (c : Dev nD) (t : Fin cfg0.N) (h1 : t.val = 19) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd h1 (show (0 : ℕ) ≠ 19 by decide)
  | succ n => exact (dif_pos h1).trans rfl

/-- The region invariant before position `n`: before the first point every scratch buffer at anything; afterwards the two
    accumulators at what the point before left in them, the other call's staging buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 c) ∗ (∃ r, prngReg c r)) := rfl

theorem PhiS_pos (c : Dev nD) (n : ℕ) (h : n ≤ cfg0.N) (hz : ¬n = 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 c) ∗ (∃ r, prngReg c r)) := by
  cases n with
  | zero => exact absurd rfl hz
  | succ n => rfl

/-! ## The proof data -/

/-- The proof data of the pipeline on core `c`: the arrays as the region finds them; after the body at point `t` each input's
    buffer at its block and the three outputs' at the accumulation's components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the closed forms say which case the point is in; the invariant
    hands the body the two accumulators at what the point before left (at anything at the first point) and takes them back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  by_cases h0 : t.val = 0
  · -- the first point
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => absurd ((hcond0_1 t).mp h) (by omega))) (noFlush0_7 t (fun h => absurd ((hcond0_1 t).mp h) (by omega)))]
    rw [Dat.leavesExact_idle (dat0 V c) 8 t (idleAt0_8 t (fun h => absurd ((hcond0_1 t).mp h) (by omega))) (noFlush0_8 t (fun h => absurd ((hcond0_1 t).mp h) (by omega)))]
    rw [outsAt0_A V c t h0]
    unfold out0_A_6 sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => absurd ((hcond0_1 t).mp h) (by omega)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 19
    · -- the last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_last t ((hcond0_1 t).mpr h1)], after0_7]
      rw [show (dat0 V c).leavesExact 8 t = owns (c : Thread nD τ) (ms0_8 t) fullShare ((dat0 V c).after 8 t) from by
        unfold Dat.leavesExact; rw [liveAt0_8_last t ((hcond0_1 t).mpr h1)], after0_8]
      rw [outsAt0_C V c t h1]
      unfold out0_C_6 out0_C_7 out0_C_8 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => absurd ((hcond0_0 t).mp h) (by omega)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · -- a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : ¬t.val = 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 20 := N_0; omega)

end Frame

end Cert.Kernel.Hand

end
-- ==== Proof.K.Reg1.lean ====
/-
  The frame half of the second pallas_call (the scale-shift-relu pass), at any float carrier.

  The call runs a grid of 20 points over 4 windows: the [100000,64] input array in blocks of 5000 rows
  (fetched at every point), the [1,64] scale row and the [1,64] shift row (each fetched once, at the first
  point), and the [100000,64] output array in blocks of 5000 rows (written back at every point).  The body
  loads its three input buffers whole, computes one pure value from them and stores it over the whole output
  buffer.  So what a point leaves in the output buffer is a closed function of the three input blocks at that
  point, and each input buffer holds its window's block at every point, whether the pipeline fetched it there
  or not (an unfetched window's block index has not moved).

  Everything is stated at a parameter V: the TensorCore's buffer contents when the call is entered.
-/
import proofs.«107690_j12764642804257_1_alg».proof.Proof.Gen.Kernel.Launch
import proofs.«107690_j12764642804257_1_alg».proof.Proof.Gen.Kernel.Skeleton
import proofs.«107690_j12764642804257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with 5000 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows: its staging buffer holds the block at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row: fetched at the first point only; its block index never moves, so the buffer holds the row at
    every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The shift row: as the scale row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [5000,64] buffer and the whole [1,64] buffer -/

abbrev blockRect : Rect S5000x64 := Rect.unit (s := S5000x64) ![0, 0] S5000x64.size inb_S5000x64_S5000x64_0_0
abbrev rowRect : Rect S1x64 := Rect.unit (s := S1x64) ![0, 0] S1x64.size inb_S1x64_S1x64_0_0

/-! ## What the body leaves in the output window's buffer -/

/-- The output buffer after the body, from the three input blocks: its one store, over the whole buffer, of the
    payload at the three loads. -/
def out1_3 (x0 : Vec F S5000x64 .f32) (x1 x2 : Vec F S1x64 .f32) : Vec F S5000x64 .f32 :=
  View.canon [⟨blockRect, k1_pay1 (View.ld x0 blockRect) (View.ld x1 rowRect) (View.ld x2 rowRect)⟩]

/-- The one store covers the buffer. -/
theorem cover1_3 (p0 : Vec F S5000x64 .f32) (y : S5000x64.Idx) :
    ∃ pc ∈ ([⟨blockRect, p0⟩] : List (View.Piece (Elt F) S5000x64 .f32)), y ∈ pc.1.set :=
  View.cover_of_tiled [⟨blockRect, p0⟩] S5000x64.size (by rfl) y

/-! ## The body's triple -/

set_option maxHeartbeats 4000000 in
/-- The body on whole staging memrefs, the three inputs' at read contents x0, x1, x2 and the output's at anything,
    runs to the continuation holding the inputs' as they were and the output's at out1_3 of them. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the call on core c: the arrays as the call finds them; after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Run.lean ====
/-
  The whole program's run.  @main is a stretch of host operations, the first pallas_call, a second stretch, the second
  pallas_call.  The buffer contents at each boundary are a fold from the launch memory: a stretch's operations applied; a
  call's arrays at what its write-backs leave, every other buffer as the call found it.  Each call is a region of the run
  over the thread state "every unscoped buffer at the boundary's contents, the generator register at some state, nothing
  owed"; the run ends with every unscoped buffer at the last boundary's contents, from which the frame claim reads the
  arguments back (no stretch and no call writes one).
-/
import proofs.«107690_j12764642804257_1_alg».proof.Proof.K.R0Frame
import proofs.«107690_j12764642804257_1_alg».proof.Proof.K.Reg1
import proofs.«107690_j12764642804257_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)
/-- After the first stretch (the first call's entry). -/
abbrev Wv1 : Dev nD → Valuation τ sig (Elt F) := fun c => StableHlo.after hostOps0 (Wv0 m ρ c)
abbrev Vv1 : (c : Dev nD) → (b : Ref sig .tc) → Buf (Elt F) ((c : Thread nD τ).loc b) := fun c b => Wv1 m ρ c b
/-- At the first call's exit: its arrays at what the pipeline leaves, every other buffer as entered. -/
def Wv2 (c : Dev nD) : Valuation τ sig (Elt F) :=
  Pipeline.withArrays spec0 c (Wv1 m ρ c) fun w => (dat0 (Vv1 m ρ) c).arrAt w cfg0.N
theorem Wv2_arr (c : Dev nD) (w : Fin cfg0.W) :
    Wv2 m ρ c (Proc.devRef .tc (Pipeline.arrRef spec0 w)) = (dat0 (Vv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vv2 : (c : Dev nD) → (b : Ref sig .tc) → Buf (Elt F) ((c : Thread nD τ).loc b) := fun c b => Wv2 m ρ c b
theorem hF0 (c : Dev nD) (w : Fin cfg0.W) : (dat0 (Vv1 m ρ) c).arrAt w cfg0.N = Vv2 m ρ c (Pipeline.arrRef spec0 w) :=
  (Wv2_arr m ρ c w).symm
theorem hrest0 (c : Dev nD) : ∀ b, b ∉ Finset.univ.image (Pipeline.arrRef spec0) → Vv2 m ρ c b = Vv1 m ρ c b :=
  fun b hb => Wv2_of_ne m ρ c b fun w e => hb (Finset.mem_image.mpr ⟨w, Finset.mem_univ _, e⟩)

/-- After the second stretch (the second call's entry). -/
abbrev Wv3 : Dev nD → Valuation τ sig (Elt F) := fun c => StableHlo.after hostOps1 (Wv2 m ρ c)
abbrev Vv3 : (c : Dev nD) → (b : Ref sig .tc) → Buf (Elt F) ((c : Thread nD τ).loc b) := fun c b => Wv3 m ρ c b
/-- At the second call's exit. -/
def Wv4 (c : Dev nD) : Valuation τ sig (Elt F) :=
  Pipeline.withArrays spec1 c (Wv3 m ρ c) fun w => (dat1 (Vv3 m ρ) c).arrAt w cfg1.N
theorem Wv4_arr (c : Dev nD) (w : Fin cfg1.W) :
    Wv4 m ρ c (Proc.devRef .tc (Pipeline.arrRef spec1 w)) = (dat1 (Vv3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vv4 : (c : Dev nD) → (b : Ref sig .tc) → Buf (Elt F) ((c : Thread nD τ).loc b) := fun c b => Wv4 m ρ c b
theorem hF1 (c : Dev nD) (w : Fin cfg1.W) : (dat1 (Vv3 m ρ) c).arrAt w cfg1.N = Vv4 m ρ c (Pipeline.arrRef spec1 w) :=
  (Wv4_arr m ρ c w).symm
theorem hrest1 (c : Dev nD) : ∀ b, b ∉ Finset.univ.image (Pipeline.arrRef spec1) → Vv4 m ρ c b = Vv3 m ρ c b :=
  fun b hb => Wv4_of_ne m ρ c b fun w e => hb (Finset.mem_image.mpr ⟨w, Finset.mem_univ _, e⟩)

/-! ### The arguments end as launched -/

theorem Wv4_main_arg0 (c : Dev nD) : Wv4 m ρ c (Proc.devRef .tc main_arg0) = m ((c : Thread nD τ).loc main_arg0) :=
  calc Wv4 m ρ c (Proc.devRef .tc main_arg0)
    _ = Wv3 m ρ c (Proc.devRef .tc main_arg0) := Wv4_of_ne m ρ c main_arg0 (by decide)
    _ = Wv2 m ρ c (Proc.devRef .tc main_arg0) := StableHlo.after_of_writes_sub hostOps1 _ hostOps1_writes (by decide : main_arg0 ∉ hostOps1_W)
    _ = Wv1 m ρ c (Proc.devRef .tc main_arg0) := (Wv2_arr m ρ c 0).trans (((dat0 (Vv1 m ρ) c).arrAt_in 0 rfl _).trans (A_eq0 (Vv1 m ρ) c 0))
    _ = Wv0 m ρ c (Proc.devRef .tc main_arg0) := StableHlo.after_of_writes_sub hostOps0 _ hostOps0_writes (by decide : main_arg0 ∉ hostOps0_W)
    _ = m ((c : Thread nD τ).loc main_arg0) := rfl

theorem Wv4_main_arg1 (c : Dev nD) : Wv4 m ρ c (Proc.devRef .tc main_arg1) = m ((c : Thread nD τ).loc main_arg1) :=
  calc Wv4 m ρ c (Proc.devRef .tc main_arg1)
    _ = Wv3 m ρ c (Proc.devRef .tc main_arg1) := Wv4_of_ne m ρ c main_arg1 (by decide)
    _ = Wv2 m ρ c (Proc.devRef .tc main_arg1) := StableHlo.after_of_writes_sub hostOps1 _ hostOps1_writes (by decide : main_arg1 ∉ hostOps1_W)
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)
    _ = m ((c : Thread nD τ).loc main_arg1) := rfl

theorem Wv4_main_arg2 (c : Dev nD) : Wv4 m ρ c (Proc.devRef .tc main_arg2) = m ((c : Thread nD τ).loc main_arg2) :=
  calc Wv4 m ρ c (Proc.devRef .tc main_arg2)
    _ = Wv3 m ρ c (Proc.devRef .tc main_arg2) := Wv4_of_ne m ρ c main_arg2 (by decide)
    _ = Wv2 m ρ c (Proc.devRef .tc main_arg2) := StableHlo.after_of_writes_sub hostOps1 _ hostOps1_writes (by decide : main_arg2 ∉ hostOps1_W)
    _ = Wv1 m ρ c (Proc.devRef .tc main_arg2) := (Wv2_arr m ρ c 2).trans (((dat0 (Vv1 m ρ) c).arrAt_in 2 rfl _).trans (A_eq0 (Vv1 m ρ) c 2))
    _ = Wv0 m ρ c (Proc.devRef .tc main_arg2) := StableHlo.after_of_writes_sub hostOps0 _ hostOps0_writes (by decide : main_arg2 ∉ hostOps0_W)
    _ = m ((c : Thread nD τ).loc main_arg2) := rfl

theorem Wv4_main_arg3 (c : Dev nD) : Wv4 m ρ c (Proc.devRef .tc main_arg3) = m ((c : Thread nD τ).loc main_arg3) :=
  calc Wv4 m ρ c (Proc.devRef .tc main_arg3)
    _ = Wv3 m ρ c (Proc.devRef .tc main_arg3) := Wv4_of_ne m ρ c main_arg3 (by decide)
    _ = Wv2 m ρ c (Proc.devRef .tc main_arg3) := StableHlo.after_of_writes_sub hostOps1 _ hostOps1_writes (by decide : main_arg3 ∉ hostOps1_W)
    _ = Wv1 m ρ c (Proc.devRef .tc main_arg3) := Wv2_of_ne m ρ c main_arg3 (by decide)
    _ = Wv0 m ρ c (Proc.devRef .tc main_arg3) := StableHlo.after_of_writes_sub hostOps0 _ hostOps0_writes (by decide : main_arg3 ∉ hostOps0_W)
    _ = m ((c : Thread nD τ).loc main_arg3) := rfl

theorem Wv4_main_arg4 (c : Dev nD) : Wv4 m ρ c (Proc.devRef .tc main_arg4) = m ((c : Thread nD τ).loc main_arg4) :=
  calc Wv4 m ρ c (Proc.devRef .tc main_arg4)
    _ = Wv3 m ρ c (Proc.devRef .tc main_arg4) := Wv4_of_ne m ρ c main_arg4 (by decide)
    _ = Wv2 m ρ c (Proc.devRef .tc main_arg4) := StableHlo.after_of_writes_sub hostOps1 _ hostOps1_writes (by decide : main_arg4 ∉ hostOps1_W)
    _ = Wv1 m ρ c (Proc.devRef .tc main_arg4) := (Wv2_arr m ρ c 4).trans (((dat0 (Vv1 m ρ) c).arrAt_in 4 rfl _).trans (A_eq0 (Vv1 m ρ) c 4))
    _ = Wv0 m ρ c (Proc.devRef .tc main_arg4) := StableHlo.after_of_writes_sub hostOps0 _ hostOps0_writes (by decide : main_arg4 ∉ hostOps0_W)
    _ = m ((c : Thread nD τ).loc main_arg4) := rfl

theorem Wv4_main_arg5 (c : Dev nD) : Wv4 m ρ c (Proc.devRef .tc main_arg5) = m ((c : Thread nD τ).loc main_arg5) :=
  calc Wv4 m ρ c (Proc.devRef .tc main_arg5)
    _ = Wv3 m ρ c (Proc.devRef .tc main_arg5) := Wv4_of_ne m ρ c main_arg5 (by decide)
    _ = Wv2 m ρ c (Proc.devRef .tc main_arg5) := StableHlo.after_of_writes_sub hostOps1 _ hostOps1_writes (by decide : main_arg5 ∉ hostOps1_W)
    _ = Wv1 m ρ c (Proc.devRef .tc main_arg5) := Wv2_of_ne m ρ c main_arg5 (by decide)
    _ = Wv0 m ρ c (Proc.devRef .tc main_arg5) := StableHlo.after_of_writes_sub hostOps0 _ hostOps0_writes (by decide : main_arg5 ∉ hostOps0_W)
    _ = m ((c : Thread nD τ).loc main_arg5) := rfl

theorem Wv4_main_arg6 (c : Dev nD) : Wv4 m ρ c (Proc.devRef .tc main_arg6) = m ((c : Thread nD τ).loc main_arg6) :=
  calc Wv4 m ρ c (Proc.devRef .tc main_arg6)
    _ = Wv3 m ρ c (Proc.devRef .tc main_arg6) := Wv4_of_ne m ρ c main_arg6 (by decide)
    _ = Wv2 m ρ c (Proc.devRef .tc main_arg6) := StableHlo.after_of_writes_sub hostOps1 _ hostOps1_writes (by decide : main_arg6 ∉ hostOps1_W)
    _ = Wv1 m ρ c (Proc.devRef .tc main_arg6) := Wv2_of_ne m ρ c main_arg6 (by decide)
    _ = Wv0 m ρ c (Proc.devRef .tc main_arg6) := StableHlo.after_of_writes_sub hostOps0 _ hostOps0_writes (by decide : main_arg6 ∉ hostOps0_W)
    _ = m ((c : Thread nD τ).loc main_arg6) := rfl

theorem Wv4_main_arg7 (c : Dev nD) : Wv4 m ρ c (Proc.devRef .tc main_arg7) = m ((c : Thread nD τ).loc main_arg7) :=
  calc Wv4 m ρ c (Proc.devRef .tc main_arg7)
    _ = Wv3 m ρ c (Proc.devRef .tc main_arg7) := Wv4_of_ne m ρ c main_arg7 (by decide)
    _ = Wv2 m ρ c (Proc.devRef .tc main_arg7) := StableHlo.after_of_writes_sub hostOps1 _ hostOps1_writes (by decide : main_arg7 ∉ hostOps1_W)
    _ = Wv1 m ρ c (Proc.devRef .tc main_arg7) := Wv2_of_ne m ρ c main_arg7 (by decide)
    _ = Wv0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Each pipeline's proof data at its call's entry contents: a literal match on the pipeline index. -/
def pdats : (p : Fin 2) → (c : Dev nD) → Dat τ (Elt F) Unit ℕ (UR sig nD τ) ℕ (Pipeline.pin (pcfgs (F := F)) Gen.adm p) c
  | ⟨0, _⟩ => fun c => dat0 (Vv1 m ρ) c
  | ⟨1, _⟩ => fun c => dat1 (Vv3 m ρ) c
abbrev 𝒱k : Variants := Variants.none
abbrev Lk : GSem nD τ sig → Finset Unit := fun _ => ∅
abbrev lvk : GSem nD τ sig → Unit → ℕ := fun _ _ => 0
/-- What rides beside the buffers through every segment: the generator register at some state and the core owing nothing. -/
abbrev Rk (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the register at some state. -/
abbrev Tk (c : Dev nD) : sProp 𝕄 := iprop(StableHlo.held (c : Thread nD τ) (Pipeline.ucRefs τ sig) (Wv4 m ρ c) ∗ ∃ r, prngReg c r)

/-! ## The calls as segments -/

-- a library lemma stated over the pinned configuration unifies with the printed one only when unification may unfold plain
-- definitions in a metavariable's type
set_option backward.isDefEq.respectTransparency.types false in
/-- Pallas call 0 over the thread state: entered from every unscoped buffer at the contents before it, left at the contents
    after it.  Its arrays are split out of the unscoped buffers and put back at the exit contents; the generator register goes
    into the region invariant and comes out; nothing is owed; the kernel has no semaphore of its own. -/
def reg0 : Pipeline.RegionSeg (pcfgs (F := F)) Gen.adm (pdats m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (Vv1 m ρ) c).loose
  hwaits := Pipeline.hwaits_of_owed_zero _ _ _ _ Lk lvk 0 fun _ _ => rfl
  pre c := iprop(StableHlo.held (c : Thread nD τ) (Pipeline.ucRefs τ sig) (Wv1 m ρ c) ∗ Rk c)
  post c := iprop(StableHlo.held (c : Thread nD τ) (Pipeline.ucRefs τ sig) (Wv2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (Vv1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (Vv1 m ρ) c)
    unfold Pipeline.ΦA
    iintro ⟨Hp, -, Hr⟩
    isplitl [Hr]; · iexact Hr
    iexact Hp
  hout c := by
    refine Idealize.SL.BI.BIBase.Entails.trans (hout0 (Vv1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (Vv1 m ρ c) (Vv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas call 1 over the thread state: entered from every unscoped buffer at the contents before it, left at the contents
    after it.  Its arrays are split out of the unscoped buffers and put back at the exit contents; the generator register goes
    into the region invariant and comes out; nothing is owed; the kernel has no semaphore of its own. -/
def reg1 : Pipeline.RegionSeg (pcfgs (F := F)) Gen.adm (pdats m ρ) () defs₀ 𝒱k Lk lvk 1 where
  win := launch1.win.to₀
  block_pos := launch1.block_pos
  stage_whole := launch1.stage_whole
  K := PEmpty
  osem k := k.elim
  ho := Pipeline.OwnSemFacts.none _
  hbody c := (body_obligation1 (Vv3 m ρ) c).loose
  hwaits := Pipeline.hwaits_of_owed_zero _ _ _ _ Lk lvk 1 fun _ _ => rfl
  pre c := iprop(StableHlo.held (c : Thread nD τ) (Pipeline.ucRefs τ sig) (Wv3 m ρ c) ∗ Rk c)
  post c := iprop(Tk m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vv3 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (Vv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (Vv3 m ρ c) (Vv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev ksegs : List (Pipeline.Seg (pcfgs (F := F)) Gen.adm (pdats m ρ) () defs₀ 𝒱k Lk lvk) :=
  [ .host (hseg hostOps0 hostOps0_sub hostOps0_fresh (Wv0 m ρ)),
    .region (reg0 m ρ),
    .host (hseg hostOps1 hostOps1_sub hostOps1_fresh (Wv2 m ρ)),
    .region (reg1 m ρ) ]
theorem main_run (c : Dev nD) : main (F := F) c = Pipeline.Seg.run (ksegs m ρ) := (main_chain c).trans (by chain_rfl)

set_option backward.isDefEq.respectTransparency.types false in
/-- THE RUN: from any memory with zero counters every weakly fair execution of @main terminates, nothing faulting, and in
    every final state each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wv4 m ρ c b) :=
  Pipeline.θ_run_regions_kit (pcfgs (F := F)) Gen.adm (pdats m ρ) () cellOf_inj emb₁ defs₀ 𝒱k Lk lvk m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rk c)) (Tₙ := Tk m ρ)
    (hch := ⟨fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (Wv4_main_arg0 m ρ c),
     (h c _ (mem_uc main_arg1 (by decide))).trans (Wv4_main_arg1 m ρ c),
     (h c _ (mem_uc main_arg2 (by decide))).trans (Wv4_main_arg2 m ρ c),
     (h c _ (mem_uc main_arg3 (by decide))).trans (Wv4_main_arg3 m ρ c),
     (h c _ (mem_uc main_arg4 (by decide))).trans (Wv4_main_arg4 m ρ c),
     (h c _ (mem_uc main_arg5 (by decide))).trans (Wv4_main_arg5 m ρ c),
     (h c _ (mem_uc main_arg6 (by decide))).trans (Wv4_main_arg6 m ρ c),
     (h c _ (mem_uc main_arg7 (by decide))).trans (Wv4_main_arg7 m ρ c)⟩) (run m ρ)

end Cert.Kernel.Hand

end
-- ==== Proof.KI.R0Defs.lean ====
/-
  The first pallas_call (the perceptron and the column statistics, 20 grid points of 5000 rows) as a pipeline:
  what its frame proof is stated over.  The body branches twice on the grid position: at the FIRST point it zeroes the
  two scratch accumulators, at the LAST point it copies them to the two statistics outputs; so a point is in one of three
  cases (first / middle / last).  The two statistics windows are idle — not stored into, not written back — except at
  the last point.  Here: each window's block at a point as the region finds it, the two conditions in closed form, where
  the statistics windows are idle, the staging and scratch memrefs by name, and the class invariant spelt buffer by buffer.
-/
import proofs.«107690_j12764642804257_1_alg».proof.Proof.Gen.KernelIdeal.Launch
import proofs.«107690_j12764642804257_1_alg».proof.Proof.Gen.KernelIdeal.Skeleton
import proofs.«107690_j12764642804257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's two conditions -/

/-- "This is the first grid point", as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point". -/
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point the body stores nothing into statistics window 7 and the pipeline does not write it back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is live. -/
theorem liveAt0_7_last : ∀ t : Fin cfg0.N, cond0_1 (grid0.coords t) → cfg0.idle 7 (grid0.coords t) = false := by decide +kernel
/-- Off the last point the body stores nothing into statistics window 8 and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point it is live. -/
theorem liveAt0_8_last : ∀ t : Fin cfg0.N, cond0_1 (grid0.coords t) → cfg0.idle 8 (grid0.coords t) = false := by decide +kernel

/-! ## The memrefs the body is called with -/

/-- One staging buffer of each output window, through which its contents are stated. -/
abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two scratch accumulators: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The scoped buffers that are neither this call's staging buffers nor its scratch: the other call's staging buffers, each
    whole at some contents, which this region never touches. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_eq]; simp only [scM0_0, scM0_1, owns_whole]; try rfl

end Cert.KernelIdeal.Hand

end
-- ==== Proof.KI.R0RunA.lean ====
/-
  The body of the first pallas_call run whole at the FIRST grid point (the accumulators are zeroed, then the point's sums added; the two statistics windows are left untouched).
  On whole staging memrefs — the six inputs at their contents, the perceptron output's at anything, the two statistics outputs' at contents handed back untouched,
  the two scratch accumulators at anything — the body runs to a continuation that holds the inputs as they
  were and each buffer it stored into with its stores written, as a list of pieces (last store first) that the run itself finds.
-/
import proofs.«107690_j12764642804257_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ owns (c : Thread nD τ) arg8 fullShare xi7
            ∗ owns (c : Thread nD τ) arg9 fullShare xi8
            ∗ (∃ d, owns (c : Thread nD τ) arg10 fullShare d)
            ∗ (∃ d, owns (c : Thread nD τ) arg11 fullShare d)
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ owns (c : Thread nD τ) arg8 fullShare xi7
              ∗ owns (c : Thread nD τ) arg9 fullShare xi8
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.R0RunB.lean ====
/-
  The body of the first pallas_call run whole at a MIDDLE grid point (the point's sums are added to the accumulators; the two statistics windows are left untouched).
  On whole staging memrefs — the six inputs at their contents, the perceptron output's at anything, the two statistics outputs' at contents handed back untouched,
  the two scratch accumulators at what the point before left — the body runs to a continuation that holds the inputs as they
  were and each buffer it stored into with its stores written, as a list of pieces (last store first) that the run itself finds.
-/
import proofs.«107690_j12764642804257_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ owns (c : Thread nD τ) arg8 fullShare xi7
            ∗ owns (c : Thread nD τ) arg9 fullShare xi8
            ∗ owns (c : Thread nD τ) arg10 fullShare xs0
            ∗ owns (c : Thread nD τ) arg11 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ owns (c : Thread nD τ) arg8 fullShare xi7
              ∗ owns (c : Thread nD τ) arg9 fullShare xi8
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.R0RunC.lean ====
/-
  The body of the first pallas_call run whole at the LAST grid point (the point's sums are added to the accumulators, which are then copied into the two statistics windows).
  On whole staging memrefs — the six inputs at their contents, the perceptron output's at anything, the two statistics outputs' at anything,
  the two scratch accumulators at what the point before left — the body runs to a continuation that holds the inputs as they
  were and each buffer it stored into with its stores written, as a list of pieces (last store first) that the run itself finds.
-/
import proofs.«107690_j12764642804257_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ d, owns (c : Thread nD τ) arg7 fullShare d)
            ∗ (∃ d, owns (c : Thread nD τ) arg8 fullShare d)
            ∗ (∃ d, owns (c : Thread nD τ) arg9 fullShare d)
            ∗ owns (c : Thread nD τ) arg10 fullShare xs0
            ∗ owns (c : Thread nD τ) arg11 fullShare xs1
            ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R0Frame.lean ====
/-
  The first pallas_call's proof data and body obligation.  What each of the three cases leaves in the perceptron output's
  block, in the two statistics outputs and in the two scratch accumulators; the ACCUMULATION — what those five hold after the
  body at each grid position, the accumulators at a position read at what the position before left —; the region invariant
  that carries the two accumulators from one point to the next; the proof data; and the body obligation at every point.
-/
import proofs.«107690_j12764642804257_1_alg».proof.Proof.KI.R0RunA
import proofs.«107690_j12764642804257_1_alg».proof.Proof.KI.R0RunB
import proofs.«107690_j12764642804257_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- At the first point the stores into the perceptron output's block cover it; what they leave there. -/
theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point the stores into the sum accumulator cover it; what they leave there. -/
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point the stores into the square-sum accumulator cover it; what they leave there. -/
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At a middle point the stores into the perceptron output's block cover it; what they leave there. -/
theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point the stores into the sum accumulator cover it; what they leave there. -/
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point the stores into the square-sum accumulator cover it; what they leave there. -/
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the stores into the perceptron output's block cover it; what they leave there. -/
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the store into the column-sum output covers it; what it leaves. -/
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the store into the column-square-sum output covers it; what it leaves. -/
theorem cover0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
def out0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the stores into the sum accumulator cover it; what they leave there. -/
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the stores into the square-sum accumulator cover it; what they leave there. -/
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Frame
-- the TensorCore's buffer contents when the region is entered
variable (V : (c : Dev nD) → (b : Ref sig .tc) → Buf (Elt F) ((c : Thread nD τ).loc b))

/-! ## What the outputs and the accumulators hold after each point -/

/-- THE ACCUMULATION: after the body at position `n`, the perceptron output's block, the two statistics outputs' buffers, and the
    two scratch accumulators (in this order).  Position 0 is the first-point case; position 19 the last-point case, the others the
    middle case, each run on the accumulators as position `n − 1` left them.  Off the last point the statistics outputs are idle:
    their components are placeholders nothing reads. -/
def outsAt0 (c : Dev nD) : (n : ℕ) → n < cfg0.N → Vec F S5000x64 .f32 × Vec F S1x64 .f32 × Vec F S1x64 .f32 × Vec F S1x64 .f32 × Vec F S1x64 .f32
  | 0, hn =>
    (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     VO0_7.read (Elt F) VO0_7.junk, VO0_8.read (Elt F) VO0_8.junk,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 19 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 19 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       VO0_7.read (Elt F) VO0_7.junk, VO0_8.read (Elt F) VO0_8.junk,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t),
     VO0_7.read (Elt F) VO0_7.junk, VO0_8.read (Elt F) VO0_8.junk,
     sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t),
     sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case over what the point before left in the accumulators. -/
theorem outsAt0_B (c : Dev nD) (t : Fin cfg0.N) (h0 : ¬t.val = 0) (h1 : ¬t.val = 19) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     VO0_7.read (Elt F) VO0_7.junk, VO0_8.read (Elt F) VO0_8.junk,
     sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case over what the point before left in the accumulators. -/
theorem outsAt0_C (c : Dev nD) (t : Fin cfg0.N) (h1 : t.val = 19) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
     sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd h1 (show (0 : ℕ) ≠ 19 by decide)
  | succ n => exact (dif_pos h1).trans rfl

/-- The region invariant before position `n`: before the first point every scratch buffer at anything; afterwards the two
    accumulators at what the point before left in them, the other call's staging buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 c) ∗ (∃ r, prngReg c r)) := rfl

theorem PhiS_pos (c : Dev nD) (n : ℕ) (h : n ≤ cfg0.N) (hz : ¬n = 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 c) ∗ (∃ r, prngReg c r)) := by
  cases n with
  | zero => exact absurd rfl hz
  | succ n => rfl

/-! ## The proof data -/

/-- The proof data of the pipeline on core `c`: the arrays as the region finds them; after the body at point `t` each input's
    buffer at its block and the three outputs' at the accumulation's components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the closed forms say which case the point is in; the invariant
    hands the body the two accumulators at what the point before left (at anything at the first point) and takes them back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  by_cases h0 : t.val = 0
  · -- the first point
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => absurd ((hcond0_1 t).mp h) (by omega))) (noFlush0_7 t (fun h => absurd ((hcond0_1 t).mp h) (by omega)))]
    rw [Dat.leavesExact_idle (dat0 V c) 8 t (idleAt0_8 t (fun h => absurd ((hcond0_1 t).mp h) (by omega))) (noFlush0_8 t (fun h => absurd ((hcond0_1 t).mp h) (by omega)))]
    rw [outsAt0_A V c t h0]
    unfold out0_A_6 sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => absurd ((hcond0_1 t).mp h) (by omega)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 19
    · -- the last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_last t ((hcond0_1 t).mpr h1)], after0_7]
      rw [show (dat0 V c).leavesExact 8 t = owns (c : Thread nD τ) (ms0_8 t) fullShare ((dat0 V c).after 8 t) from by
        unfold Dat.leavesExact; rw [liveAt0_8_last t ((hcond0_1 t).mpr h1)], after0_8]
      rw [outsAt0_C V c t h1]
      unfold out0_C_6 out0_C_7 out0_C_8 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => absurd ((hcond0_0 t).mp h) (by omega)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · -- a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : ¬t.val = 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 20 := N_0; omega)

end Frame

end Cert.KernelIdeal.Hand

end
-- ==== Proof.KI.Reg1.lean ====
/-
  The frame half of the second pallas_call (the scale-shift-relu pass), at any float carrier.

  The call runs a grid of 20 points over 4 windows: the [100000,64] input array in blocks of 5000 rows
  (fetched at every point), the [1,64] scale row and the [1,64] shift row (each fetched once, at the first
  point), and the [100000,64] output array in blocks of 5000 rows (written back at every point).  The body
  loads its three input buffers whole, computes one pure value from them and stores it over the whole output
  buffer.  So what a point leaves in the output buffer is a closed function of the three input blocks at that
  point, and each input buffer holds its window's block at every point, whether the pipeline fetched it there
  or not (an unfetched window's block index has not moved).

  Everything is stated at a parameter V: the TensorCore's buffer contents when the call is entered.
-/
import proofs.«107690_j12764642804257_1_alg».proof.Proof.Gen.KernelIdeal.Launch
import proofs.«107690_j12764642804257_1_alg».proof.Proof.Gen.KernelIdeal.Skeleton
import proofs.«107690_j12764642804257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with 5000 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows: its staging buffer holds the block at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale row: fetched at the first point only; its block index never moves, so the buffer holds the row at
    every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The shift row: as the scale row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [5000,64] buffer and the whole [1,64] buffer -/

abbrev blockRect : Rect S5000x64 := Rect.unit (s := S5000x64) ![0, 0] S5000x64.size inb_S5000x64_S5000x64_0_0
abbrev rowRect : Rect S1x64 := Rect.unit (s := S1x64) ![0, 0] S1x64.size inb_S1x64_S1x64_0_0

/-! ## What the body leaves in the output window's buffer -/

/-- The output buffer after the body, from the three input blocks: its one store, over the whole buffer, of the
    payload at the three loads. -/
def out1_3 (x0 : Vec F S5000x64 .f32) (x1 x2 : Vec F S1x64 .f32) : Vec F S5000x64 .f32 :=
  View.canon [⟨blockRect, k1_pay1 (View.ld x0 blockRect) (View.ld x1 rowRect) (View.ld x2 rowRect)⟩]

/-- The one store covers the buffer. -/
theorem cover1_3 (p0 : Vec F S5000x64 .f32) (y : S5000x64.Idx) :
    ∃ pc ∈ ([⟨blockRect, p0⟩] : List (View.Piece (Elt F) S5000x64 .f32)), y ∈ pc.1.set :=
  View.cover_of_tiled [⟨blockRect, p0⟩] S5000x64.size (by rfl) y

/-! ## The body's triple -/

set_option maxHeartbeats 4000000 in
/-- The body on whole staging memrefs, the three inputs' at read contents x0, x1, x2 and the output's at anything,
    runs to the continuation holding the inputs' as they were and the output's at out1_3 of them. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the call on core c: the arrays as the call finds them; after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Run.lean ====
/-
  The whole program's run.  @main is a stretch of host operations, the first pallas_call, a second stretch, the second
  pallas_call.  The buffer contents at each boundary are a fold from the launch memory: a stretch's operations applied; a
  call's arrays at what its write-backs leave, every other buffer as the call found it.  Each call is a region of the run
  over the thread state "every unscoped buffer at the boundary's contents, the generator register at some state, nothing
  owed"; the run ends with every unscoped buffer at the last boundary's contents, from which the frame claim reads the
  arguments back (no stretch and no call writes one).
-/
import proofs.«107690_j12764642804257_1_alg».proof.Proof.KI.R0Frame
import proofs.«107690_j12764642804257_1_alg».proof.Proof.KI.Reg1
import proofs.«107690_j12764642804257_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)
/-- After the first stretch (the first call's entry). -/
abbrev Wv1 : Dev nD → Valuation τ sig (Elt F) := fun c => StableHlo.after hostOps0 (Wv0 m ρ c)
abbrev Vv1 : (c : Dev nD) → (b : Ref sig .tc) → Buf (Elt F) ((c : Thread nD τ).loc b) := fun c b => Wv1 m ρ c b
/-- At the first call's exit: its arrays at what the pipeline leaves, every other buffer as entered. -/
def Wv2 (c : Dev nD) : Valuation τ sig (Elt F) :=
  Pipeline.withArrays spec0 c (Wv1 m ρ c) fun w => (dat0 (Vv1 m ρ) c).arrAt w cfg0.N
theorem Wv2_arr (c : Dev nD) (w : Fin cfg0.W) :
    Wv2 m ρ c (Proc.devRef .tc (Pipeline.arrRef spec0 w)) = (dat0 (Vv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vv2 : (c : Dev nD) → (b : Ref sig .tc) → Buf (Elt F) ((c : Thread nD τ).loc b) := fun c b => Wv2 m ρ c b
theorem hF0 (c : Dev nD) (w : Fin cfg0.W) : (dat0 (Vv1 m ρ) c).arrAt w cfg0.N = Vv2 m ρ c (Pipeline.arrRef spec0 w) :=
  (Wv2_arr m ρ c w).symm
theorem hrest0 (c : Dev nD) : ∀ b, b ∉ Finset.univ.image (Pipeline.arrRef spec0) → Vv2 m ρ c b = Vv1 m ρ c b :=
  fun b hb => Wv2_of_ne m ρ c b fun w e => hb (Finset.mem_image.mpr ⟨w, Finset.mem_univ _, e⟩)

/-- After the second stretch (the second call's entry). -/
abbrev Wv3 : Dev nD → Valuation τ sig (Elt F) := fun c => StableHlo.after hostOps1 (Wv2 m ρ c)
abbrev Vv3 : (c : Dev nD) → (b : Ref sig .tc) → Buf (Elt F) ((c : Thread nD τ).loc b) := fun c b => Wv3 m ρ c b
/-- At the second call's exit. -/
def Wv4 (c : Dev nD) : Valuation τ sig (Elt F) :=
  Pipeline.withArrays spec1 c (Wv3 m ρ c) fun w => (dat1 (Vv3 m ρ) c).arrAt w cfg1.N
theorem Wv4_arr (c : Dev nD) (w : Fin cfg1.W) :
    Wv4 m ρ c (Proc.devRef .tc (Pipeline.arrRef spec1 w)) = (dat1 (Vv3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vv4 : (c : Dev nD) → (b : Ref sig .tc) → Buf (Elt F) ((c : Thread nD τ).loc b) := fun c b => Wv4 m ρ c b
theorem hF1 (c : Dev nD) (w : Fin cfg1.W) : (dat1 (Vv3 m ρ) c).arrAt w cfg1.N = Vv4 m ρ c (Pipeline.arrRef spec1 w) :=
  (Wv4_arr m ρ c w).symm
theorem hrest1 (c : Dev nD) : ∀ b, b ∉ Finset.univ.image (Pipeline.arrRef spec1) → Vv4 m ρ c b = Vv3 m ρ c b :=
  fun b hb => Wv4_of_ne m ρ c b fun w e => hb (Finset.mem_image.mpr ⟨w, Finset.mem_univ _, e⟩)

/-! ### The arguments end as launched -/

theorem Wv4_main_arg0 (c : Dev nD) : Wv4 m ρ c (Proc.devRef .tc main_arg0) = m ((c : Thread nD τ).loc main_arg0) :=
  calc Wv4 m ρ c (Proc.devRef .tc main_arg0)
    _ = Wv3 m ρ c (Proc.devRef .tc main_arg0) := Wv4_of_ne m ρ c main_arg0 (by decide)
    _ = Wv2 m ρ c (Proc.devRef .tc main_arg0) := StableHlo.after_of_writes_sub hostOps1 _ hostOps1_writes (by decide : main_arg0 ∉ hostOps1_W)
    _ = Wv1 m ρ c (Proc.devRef .tc main_arg0) := (Wv2_arr m ρ c 0).trans (((dat0 (Vv1 m ρ) c).arrAt_in 0 rfl _).trans (A_eq0 (Vv1 m ρ) c 0))
    _ = Wv0 m ρ c (Proc.devRef .tc main_arg0) := StableHlo.after_of_writes_sub hostOps0 _ hostOps0_writes (by decide : main_arg0 ∉ hostOps0_W)
    _ = m ((c : Thread nD τ).loc main_arg0) := rfl

theorem Wv4_main_arg1 (c : Dev nD) : Wv4 m ρ c (Proc.devRef .tc main_arg1) = m ((c : Thread nD τ).loc main_arg1) :=
  calc Wv4 m ρ c (Proc.devRef .tc main_arg1)
    _ = Wv3 m ρ c (Proc.devRef .tc main_arg1) := Wv4_of_ne m ρ c main_arg1 (by decide)
    _ = Wv2 m ρ c (Proc.devRef .tc main_arg1) := StableHlo.after_of_writes_sub hostOps1 _ hostOps1_writes (by decide : main_arg1 ∉ hostOps1_W)
    _ = Wv1 m ρ c (Proc.devRef .tc main_arg1) := Wv2_of_ne m ρ c main_arg1 (by decide)
    _ = Wv0 m ρ c (Proc.devRef .tc main_arg1) := StableHlo.after_of_writes_sub hostOps0 _ hostOps0_writes (by decide : main_arg1 ∉ hostOps0_W)
    _ = m ((c : Thread nD τ).loc main_arg1) := rfl

theorem Wv4_main_arg2 (c : Dev nD) : Wv4 m ρ c (Proc.devRef .tc main_arg2) = m ((c : Thread nD τ).loc main_arg2) :=
  calc Wv4 m ρ c (Proc.devRef .tc main_arg2)
    _ = Wv3 m ρ c (Proc.devRef .tc main_arg2) := Wv4_of_ne m ρ c main_arg2 (by decide)
    _ = Wv2 m ρ c (Proc.devRef .tc main_arg2) := StableHlo.after_of_writes_sub hostOps1 _ hostOps1_writes (by decide : main_arg2 ∉ hostOps1_W)
    _ = Wv1 m ρ c (Proc.devRef .tc main_arg2) := (Wv2_arr m ρ c 2).trans (((dat0 (Vv1 m ρ) c).arrAt_in 2 rfl _).trans (A_eq0 (Vv1 m ρ) c 2))
    _ = Wv0 m ρ c (Proc.devRef .tc main_arg2) := StableHlo.after_of_writes_sub hostOps0 _ hostOps0_writes (by decide : main_arg2 ∉ hostOps0_W)
    _ = m ((c : Thread nD τ).loc main_arg2) := rfl

theorem Wv4_main_arg3 (c : Dev nD) : Wv4 m ρ c (Proc.devRef .tc main_arg3) = m ((c : Thread nD τ).loc main_arg3) :=
  calc Wv4 m ρ c (Proc.devRef .tc main_arg3)
    _ = Wv3 m ρ c (Proc.devRef .tc main_arg3) := Wv4_of_ne m ρ c main_arg3 (by decide)
    _ = Wv2 m ρ c (Proc.devRef .tc main_arg3) := StableHlo.after_of_writes_sub hostOps1 _ hostOps1_writes (by decide : main_arg3 ∉ hostOps1_W)
    _ = Wv1 m ρ c (Proc.devRef .tc main_arg3) := Wv2_of_ne m ρ c main_arg3 (by decide)
    _ = Wv0 m ρ c (Proc.devRef .tc main_arg3) := StableHlo.after_of_writes_sub hostOps0 _ hostOps0_writes (by decide : main_arg3 ∉ hostOps0_W)
    _ = m ((c : Thread nD τ).loc main_arg3) := rfl

theorem Wv4_main_arg4 (c : Dev nD) : Wv4 m ρ c (Proc.devRef .tc main_arg4) = m ((c : Thread nD τ).loc main_arg4) :=
  calc Wv4 m ρ c (Proc.devRef .tc main_arg4)
    _ = Wv3 m ρ c (Proc.devRef .tc main_arg4) := Wv4_of_ne m ρ c main_arg4 (by decide)
    _ = Wv2 m ρ c (Proc.devRef .tc main_arg4) := StableHlo.after_of_writes_sub hostOps1 _ hostOps1_writes (by decide : main_arg4 ∉ hostOps1_W)
    _ = Wv1 m ρ c (Proc.devRef .tc main_arg4) := (Wv2_arr m ρ c 4).trans (((dat0 (Vv1 m ρ) c).arrAt_in 4 rfl _).trans (A_eq0 (Vv1 m ρ) c 4))
    _ = Wv0 m ρ c (Proc.devRef .tc main_arg4) := StableHlo.after_of_writes_sub hostOps0 _ hostOps0_writes (by decide : main_arg4 ∉ hostOps0_W)
    _ = m ((c : Thread nD τ).loc main_arg4) := rfl

theorem Wv4_main_arg5 (c : Dev nD) : Wv4 m ρ c (Proc.devRef .tc main_arg5) = m ((c : Thread nD τ).loc main_arg5) :=
  calc Wv4 m ρ c (Proc.devRef .tc main_arg5)
    _ = Wv3 m ρ c (Proc.devRef .tc main_arg5) := Wv4_of_ne m ρ c main_arg5 (by decide)
    _ = Wv2 m ρ c (Proc.devRef .tc main_arg5) := StableHlo.after_of_writes_sub hostOps1 _ hostOps1_writes (by decide : main_arg5 ∉ hostOps1_W)
    _ = Wv1 m ρ c (Proc.devRef .tc main_arg5) := Wv2_of_ne m ρ c main_arg5 (by decide)
    _ = Wv0 m ρ c (Proc.devRef .tc main_arg5) := StableHlo.after_of_writes_sub hostOps0 _ hostOps0_writes (by decide : main_arg5 ∉ hostOps0_W)
    _ = m ((c : Thread nD τ).loc main_arg5) := rfl

theorem Wv4_main_arg6 (c : Dev nD) : Wv4 m ρ c (Proc.devRef .tc main_arg6) = m ((c : Thread nD τ).loc main_arg6) :=
  calc Wv4 m ρ c (Proc.devRef .tc main_arg6)
    _ = Wv3 m ρ c (Proc.devRef .tc main_arg6) := Wv4_of_ne m ρ c main_arg6 (by decide)
    _ = Wv2 m ρ c (Proc.devRef .tc main_arg6) := StableHlo.after_of_writes_sub hostOps1 _ hostOps1_writes (by decide : main_arg6 ∉ hostOps1_W)
    _ = Wv1 m ρ c (Proc.devRef .tc main_arg6) := Wv2_of_ne m ρ c main_arg6 (by decide)
    _ = Wv0 m ρ c (Proc.devRef .tc main_arg6) := StableHlo.after_of_writes_sub hostOps0 _ hostOps0_writes (by decide : main_arg6 ∉ hostOps0_W)
    _ = m ((c : Thread nD τ).loc main_arg6) := rfl

theorem Wv4_main_arg7 (c : Dev nD) : Wv4 m ρ c (Proc.devRef .tc main_arg7) = m ((c : Thread nD τ).loc main_arg7) :=
  calc Wv4 m ρ c (Proc.devRef .tc main_arg7)
    _ = Wv3 m ρ c (Proc.devRef .tc main_arg7) := Wv4_of_ne m ρ c main_arg7 (by decide)
    _ = Wv2 m ρ c (Proc.devRef .tc main_arg7) := StableHlo.after_of_writes_sub hostOps1 _ hostOps1_writes (by decide : main_arg7 ∉ hostOps1_W)
    _ = Wv1 m ρ c (Proc.devRef .tc main_arg7) := Wv2_of_ne m ρ c main_arg7 (by decide)
    _ = Wv0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Each pipeline's proof data at its call's entry contents: a literal match on the pipeline index. -/
def pdats : (p : Fin 2) → (c : Dev nD) → Dat τ (Elt F) Unit ℕ (UR sig nD τ) ℕ (Pipeline.pin (pcfgs (F := F)) Gen.adm p) c
  | ⟨0, _⟩ => fun c => dat0 (Vv1 m ρ) c
  | ⟨1, _⟩ => fun c => dat1 (Vv3 m ρ) c
abbrev 𝒱k : Variants := Variants.none
abbrev Lk : GSem nD τ sig → Finset Unit := fun _ => ∅
abbrev lvk : GSem nD τ sig → Unit → ℕ := fun _ _ => 0
/-- What rides beside the buffers through every segment: the generator register at some state and the core owing nothing. -/
abbrev Rk (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the register at some state. -/
abbrev Tk (c : Dev nD) : sProp 𝕄 := iprop(StableHlo.held (c : Thread nD τ) (Pipeline.ucRefs τ sig) (Wv4 m ρ c) ∗ ∃ r, prngReg c r)

/-! ## The calls as segments -/

-- a library lemma stated over the pinned configuration unifies with the printed one only when unification may unfold plain
-- definitions in a metavariable's type
set_option backward.isDefEq.respectTransparency.types false in
/-- Pallas call 0 over the thread state: entered from every unscoped buffer at the contents before it, left at the contents
    after it.  Its arrays are split out of the unscoped buffers and put back at the exit contents; the generator register goes
    into the region invariant and comes out; nothing is owed; the kernel has no semaphore of its own. -/
def reg0 : Pipeline.RegionSeg (pcfgs (F := F)) Gen.adm (pdats m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (Vv1 m ρ) c).loose
  hwaits := Pipeline.hwaits_of_owed_zero _ _ _ _ Lk lvk 0 fun _ _ => rfl
  pre c := iprop(StableHlo.held (c : Thread nD τ) (Pipeline.ucRefs τ sig) (Wv1 m ρ c) ∗ Rk c)
  post c := iprop(StableHlo.held (c : Thread nD τ) (Pipeline.ucRefs τ sig) (Wv2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (Vv1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (Vv1 m ρ) c)
    unfold Pipeline.ΦA
    iintro ⟨Hp, -, Hr⟩
    isplitl [Hr]; · iexact Hr
    iexact Hp
  hout c := by
    refine Idealize.SL.BI.BIBase.Entails.trans (hout0 (Vv1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (Vv1 m ρ c) (Vv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas call 1 over the thread state: entered from every unscoped buffer at the contents before it, left at the contents
    after it.  Its arrays are split out of the unscoped buffers and put back at the exit contents; the generator register goes
    into the region invariant and comes out; nothing is owed; the kernel has no semaphore of its own. -/
def reg1 : Pipeline.RegionSeg (pcfgs (F := F)) Gen.adm (pdats m ρ) () defs₀ 𝒱k Lk lvk 1 where
  win := launch1.win.to₀
  block_pos := launch1.block_pos
  stage_whole := launch1.stage_whole
  K := PEmpty
  osem k := k.elim
  ho := Pipeline.OwnSemFacts.none _
  hbody c := (body_obligation1 (Vv3 m ρ) c).loose
  hwaits := Pipeline.hwaits_of_owed_zero _ _ _ _ Lk lvk 1 fun _ _ => rfl
  pre c := iprop(StableHlo.held (c : Thread nD τ) (Pipeline.ucRefs τ sig) (Wv3 m ρ c) ∗ Rk c)
  post c := iprop(Tk m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vv3 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (Vv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (Vv3 m ρ c) (Vv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev ksegs : List (Pipeline.Seg (pcfgs (F := F)) Gen.adm (pdats m ρ) () defs₀ 𝒱k Lk lvk) :=
  [ .host (hseg hostOps0 hostOps0_sub hostOps0_fresh (Wv0 m ρ)),
    .region (reg0 m ρ),
    .host (hseg hostOps1 hostOps1_sub hostOps1_fresh (Wv2 m ρ)),
    .region (reg1 m ρ) ]
theorem main_run (c : Dev nD) : main (F := F) c = Pipeline.Seg.run (ksegs m ρ) := (main_chain c).trans (by chain_rfl)

set_option backward.isDefEq.respectTransparency.types false in
/-- THE RUN: from any memory with zero counters every weakly fair execution of @main terminates, nothing faulting, and in
    every final state each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wv4 m ρ c b) :=
  Pipeline.θ_run_regions_kit (pcfgs (F := F)) Gen.adm (pdats m ρ) () cellOf_inj emb₁ defs₀ 𝒱k Lk lvk m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rk c)) (Tₙ := Tk m ρ)
    (hch := ⟨fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (Wv4_main_arg0 m ρ c),
     (h c _ (mem_uc main_arg1 (by decide))).trans (Wv4_main_arg1 m ρ c),
     (h c _ (mem_uc main_arg2 (by decide))).trans (Wv4_main_arg2 m ρ c),
     (h c _ (mem_uc main_arg3 (by decide))).trans (Wv4_main_arg3 m ρ c),
     (h c _ (mem_uc main_arg4 (by decide))).trans (Wv4_main_arg4 m ρ c),
     (h c _ (mem_uc main_arg5 (by decide))).trans (Wv4_main_arg5 m ρ c),
     (h c _ (mem_uc main_arg6 (by decide))).trans (Wv4_main_arg6 m ρ c),
     (h c _ (mem_uc main_arg7 (by decide))).trans (Wv4_main_arg7 m ρ c)⟩) (run m ρ)

end Cert.KernelIdeal.Hand

end
-- ==== Proof.Spec.lean ====
/-
  The two programs' common mathematics, entry by entry on the extended reals, with no program in sight.

  A GIN layer: `h = x + A` (a node's features plus the sum `A` of its in-neighbours' features), a two-layer
  perceptron `z = relu (h · W1 + b1) · W2 + b2` row by row, then batch normalisation over the 100000 rows of each of
  the 64 columns, and a final relu.  The two sides normalise differently:

  * one side computes per column the sums `S = ∑ z` and `Q = ∑ z²`, then `μ = S / n`, `v = Q / n − μ²`,
    `scale = γ · (v + ε)^(-1/2)`, `shift = β − μ · scale`, and returns `max (z · scale + shift) 0`  (`kOut`);
  * the other computes `μ = S / n`, the centred second moment `v' = ∑ (z − μ)² / (n − 0)`, and returns
    `max ((z − μ) · (v' + ε)^(-1/2) · γ + β) 0`  (`rOut`).

  `n` and `ε` are kept as the f32 words the programs spell (100000.0 and 9.99999974e-6).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A node-feature array, a weight matrix, a bias (or scale) vector: functions of an index into the literal shape. -/
abbrev Mat : Type := (⟨2, ![100000, 64]⟩ : Shape).Idx → EReal
abbrev Wt : Type := (⟨2, ![64, 64]⟩ : Shape).Idx → EReal
abbrev Row : Type := (⟨1, ![64]⟩ : Shape).Idx → EReal

/-- The number of rows as the programs spell it: the f32 word of 100000.0. -/
def nWord : EReal := Ideal.ofBits .f32 0x47C35000#32
/-- The variance guard as the programs spell it: the f32 word nearest 1e-5. -/
def epsWord : EReal := Ideal.ofBits .f32 0x3727C5AC#32

/-- The first layer with its relu: entry `(r, k)` of `max (h · W1 + b1) 0`. -/
def hidden (h : Mat) (W1 : Wt) (b1 : Row) (r : Fin 100000) (k : Fin 64) : EReal :=
  max ((∑ i : Fin 64, h (ix2 r i) * W1 (ix2 i k)) + b1 (ix1 k)) 0

/-- The perceptron: entry `(r, c)` of `hidden · W2 + b2`. -/
def mlpAt (h : Mat) (W1 : Wt) (b1 : Row) (W2 : Wt) (b2 : Row) (r : Fin 100000) (c : Fin 64) : EReal :=
  (∑ k : Fin 64, hidden h W1 b1 r k * W2 (ix2 k c)) + b2 (ix1 c)

/-- A column's sum and its sum of squares over all rows. -/
def colSum (z : Fin 100000 → Fin 64 → EReal) (c : Fin 64) : EReal := ∑ r : Fin 100000, z r c
def colSumSq (z : Fin 100000 → Fin 64 → EReal) (c : Fin 64) : EReal := ∑ r : Fin 100000, z r c * z r c

/-- The column mean: the sum divided by the row count. -/
def mean (z : Fin 100000 → Fin 64 → EReal) (c : Fin 64) : EReal := Ideal.div (colSum z c) nWord

/-! ### The side that normalises through `E[z²] − E[z]²`, scale and shift -/

def kVar (z : Fin 100000 → Fin 64 → EReal) (c : Fin 64) : EReal :=
  Ideal.div (colSumSq z c) nWord - mean z c * mean z c
def kScale (z : Fin 100000 → Fin 64 → EReal) (γ : Fin 64 → EReal) (c : Fin 64) : EReal :=
  γ c * Ideal.rsqrt (kVar z c + epsWord)
def kShift (z : Fin 100000 → Fin 64 → EReal) (γ β : Fin 64 → EReal) (c : Fin 64) : EReal :=
  β c - mean z c * kScale z γ c
def kOut (z : Fin 100000 → Fin 64 → EReal) (γ β : Fin 64 → EReal) (r : Fin 100000) (c : Fin 64) : EReal :=
  max (z r c * kScale z γ c + kShift z γ β c) 0

/-! ### The side that centres first -/

/-- The centred second moment's numerator. -/
def centSq (z : Fin 100000 → Fin 64 → EReal) (c : Fin 64) : EReal :=
  ∑ r : Fin 100000, (z r c - mean z c) * (z r c - mean z c)
/-- The biased variance: the numerator over `n − 0` (the row count less zero degrees of freedom). -/
def rVar (z : Fin 100000 → Fin 64 → EReal) (c : Fin 64) : EReal := Ideal.div (centSq z c) (nWord - 0)
def rOut (z : Fin 100000 → Fin 64 → EReal) (γ β : Fin 64 → EReal) (r : Fin 100000) (c : Fin 64) : EReal :=
  max ((z r c - mean z c) * Ideal.rsqrt (rVar z c + epsWord) * γ c + β c) 0

/-! ### The whole layer as an array, either way -/

/-- The layer's perceptron output on `x + A`, by coordinates. -/
def zOf (x A : Mat) (W1 : Wt) (b1 : Row) (W2 : Wt) (b2 : Row) : Fin 100000 → Fin 64 → EReal :=
  fun r c => mlpAt (fun i => x i + A i) W1 b1 W2 b2 r c

def outK (x A : Mat) (W1 : Wt) (b1 : Row) (W2 : Wt) (b2 : Row) (γ β : Row) : Mat :=
  fun j => kOut (zOf x A W1 b1 W2 b2) (fun c => γ (ix1 c)) (fun c => β (ix1 c)) (j 0) (j 1)

def outR (x A : Mat) (W1 : Wt) (b1 : Row) (W2 : Wt) (b2 : Row) (γ β : Row) : Mat :=
  fun j => rOut (zOf x A W1 b1 W2 b2) (fun c => γ (ix1 c)) (fun c => β (ix1 c)) (j 0) (j 1)

end Cert.Spec

end
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.KI.Glue0.lean ====
/-
  What the first stretch of host operations of the kernel's program leaves, read as functions of the arguments.

  The neighbour aggregate: row 0 of the edge array gives each edge's source, row 1 its destination; a negative source
  index is wrapped by the row count; the sources' feature rows are gathered and summed into the destinations' rows of
  a zero array.  The two bias vectors are re-laid as one-row matrices.  Nothing else is changed.
-/
import proofs.«107690_j12764642804257_1_alg».proof.Proof.Gen.KernelIdeal.Regions
import proofs.«107690_j12764642804257_1_alg».proof.Proof.Spec
import Idealize.ShloMosaic.Lib.StableHlo.Run
import proofs.«107690_j12764642804257_1_alg».proof.Proof.LibRealEntries
import Idealize.ShloMosaic.Lib.ValueLayout

noncomputable section

namespace Cert.KernelIdeal.Hand

open Idealize.ShloMosaic Idealize.ShloMosaic.TcCoe Idealize.ShloMosaic.ValueIdx Cert.KernelIdeal Cert.KernelIdeal.Gen

/-- The neighbour aggregate as a function of the feature array `x` and the edge array `e`: entry `(n, k)` is the sum over
    the edges whose destination is `n` of `x` at (the edge's source, `k`). -/
def aggTerm (x : (⟨S100000x64, .f32⟩ : BufTy).Contents (Elt Ideal)) (e : (⟨S2x1000000, .i32⟩ : BufTy).Contents (Elt Ideal)) :
    (⟨S100000x64, .f32⟩ : BufTy).Contents (Elt Ideal) :=
  let v0 : (⟨S1x1000000, .i32⟩ : BufTy).Contents (Elt Ideal) := extractStridedSlice S1x1000000 ![0, 0] e slices_S2x1000000_S1x1000000_0_0
  let v1 : (⟨S1000000, .i32⟩ : BufTy).Contents (Elt Ideal) := fun i => shapeCast S1000000 v0 shapeCasts_S1x1000000_S1000000 i
  let v2 : (⟨S1x1000000, .i32⟩ : BufTy).Contents (Elt Ideal) := extractStridedSlice S1x1000000 ![1, 0] e slices_S2x1000000_S1x1000000_1_0
  let v3 : (⟨S1000000, .i32⟩ : BufTy).Contents (Elt Ideal) := fun i => shapeCast S1000000 v2 shapeCasts_S1x1000000_S1000000 i
  let v4 : (⟨S1000000, .i32⟩ : BufTy).Contents (Elt Ideal) := broadcastInDim S1000000 ![] bcast_S_S1000000 (constantI S_ 32 0#32)
  let v5 : (⟨S1000000, .i1⟩ : BufTy).Contents (Elt Ideal) := cmpi .slt v1 v4
  let v6 : (⟨S1000000, .i32⟩ : BufTy).Contents (Elt Ideal) := broadcastInDim S1000000 ![] bcast_S_S1000000 (constantI S_ 32 100000#32)
  let v7 : (⟨S1000000, .i32⟩ : BufTy).Contents (Elt Ideal) := addi v1 v6
  let v8 : (⟨S1000000, .i32⟩ : BufTy).Contents (Elt Ideal) := select v5 v7 v1
  let v9 : (⟨S1000000x1, .i32⟩ : BufTy).Contents (Elt Ideal) := broadcastInDim S1000000x1 ![0] bcast_S1000000_S1000000x1_0 v8
  let v10 : (⟨S1000000x64, .f32⟩ : BufTy).Contents (Elt Ideal) := Host.gather gather_S100000x64_S1000000x1_S1000000x64_1_0_n_n_0_1_164 x v9
  let v11 : (⟨S100000x64, .f32⟩ : BufTy).Contents (Elt Ideal) := broadcastInDim S100000x64 ![] bcast_S_S100000x64 (constant (F := Ideal) S_ .f32 0x00000000#32)
  let v12 : (⟨S1000000x1, .i32⟩ : BufTy).Contents (Elt Ideal) := broadcastInDim S1000000x1 ![0] bcast_S1000000_S1000000x1_0 v3
  Host.scatterAdd (F := Ideal) (φ := .f32) scatter_S100000x64_S1000000x1_S1000000x64_1_0_0_1 v11 v12 v10

/-- After the first stretch the aggregate's buffer holds `aggTerm` of the feature and edge arguments. -/
theorem after0_agg (W : Valuation τ sig (Elt Ideal)) :
    StableHlo.after hostOps0 W (Proc.devRef .tc main_v13)
      = aggTerm (W (Proc.devRef .tc main_arg0)) (W (Proc.devRef .tc main_arg1)) := by
  after_results
  rfl

/-- The first bias as a one-row matrix: the reshape of the bias argument. -/
theorem after0_b1_eq (W : Valuation τ sig (Elt Ideal)) :
    StableHlo.after hostOps0 W (Proc.devRef .tc main_v14)
      = fun i => shapeCast S1x64 (W (Proc.devRef .tc main_arg3) : S64.Idx → EReal) shapeCasts_S64_S1x64 i := by
  after_results
  rfl

/-- Read at column `k` it is the bias at `k`. -/
theorem after0_b1 (W : Valuation τ sig (Elt Ideal)) (k : Fin 64) :
    StableHlo.after hostOps0 W (Proc.devRef .tc main_v14) (ix2 (0 : Fin 1) k) = W (Proc.devRef .tc main_arg3) (ix1 k) := by
  after_results
  exact shapeCast_a_1a_apply (W (Proc.devRef .tc main_arg3) : S64.Idx → EReal) shapeCasts_S64_S1x64 (0 : Fin 1) k

/-- The second bias likewise. -/
theorem after0_b2_eq (W : Valuation τ sig (Elt Ideal)) :
    StableHlo.after hostOps0 W (Proc.devRef .tc main_v15)
      = fun i => shapeCast S1x64 (W (Proc.devRef .tc main_arg5) : S64.Idx → EReal) shapeCasts_S64_S1x64 i := by
  after_results
  rfl

theorem after0_b2 (W : Valuation τ sig (Elt Ideal)) (k : Fin 64) :
    StableHlo.after hostOps0 W (Proc.devRef .tc main_v15) (ix2 (0 : Fin 1) k) = W (Proc.devRef .tc main_arg5) (ix1 k) := by
  after_results
  exact shapeCast_a_1a_apply (W (Proc.devRef .tc main_arg5) : S64.Idx → EReal) shapeCasts_S64_S1x64 (0 : Fin 1) k

/-- The first stretch leaves every buffer it does not write as it was; in particular every argument. -/
theorem after0_keep (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h

theorem after0_keep_arg0 (W : Valuation τ sig (Elt Ideal)) :
    StableHlo.after hostOps0 W (Proc.devRef .tc main_arg0) = W (Proc.devRef .tc main_arg0) := after0_keep W main_arg0 (by decide)
theorem after0_keep_arg2 (W : Valuation τ sig (Elt Ideal)) :
    StableHlo.after hostOps0 W (Proc.devRef .tc main_arg2) = W (Proc.devRef .tc main_arg2) := after0_keep W main_arg2 (by decide)
theorem after0_keep_arg4 (W : Valuation τ sig (Elt Ideal)) :
    StableHlo.after hostOps0 W (Proc.devRef .tc main_arg4) = W (Proc.devRef .tc main_arg4) := after0_keep W main_arg4 (by decide)
theorem after0_keep_arg6 (W : Valuation τ sig (Elt Ideal)) :
    StableHlo.after hostOps0 W (Proc.devRef .tc main_arg6) = W (Proc.devRef .tc main_arg6) := after0_keep W main_arg6 (by decide)
theorem after0_keep_arg7 (W : Valuation τ sig (Elt Ideal)) :
    StableHlo.after hostOps0 W (Proc.devRef .tc main_arg7) = W (Proc.devRef .tc main_arg7) := after0_keep W main_arg7 (by decide)

/-! ### The aggregate of a real feature array is real -/

/-- A splat of the zero word is real. -/
theorem zeroSplat_isReal {t : Shape} (h : (⟨0, ![]⟩ : Shape).BroadcastsInDim t ![]) (i : t.Idx) :
    Cert.RealEntries.IsReal (broadcastInDim t ![] h (constant (F := Ideal) ⟨0, ![]⟩ .f32 0x00000000#32) i) := by
  have h0 : broadcastInDim t ![] h (constant (F := Ideal) ⟨0, ![]⟩ .f32 0x00000000#32) i = 0 := Ideal.ofBits_zero_f32
  rw [h0]
  exact Cert.RealEntries.isReal_zero

/-- Gathered entries of a real array, summed into a zero array by an accumulating scatter, are real: each entry is
    zero plus a finite sum of entries of the array. -/
theorem scatterAdd_gather_isReal {s si su : Shape} {w : Nat} (d : ScatterDims s si su) (g : GatherDims s si su)
    (hb : (⟨0, ![]⟩ : Shape).BroadcastsInDim s ![]) (x : s.Idx → EReal) (v9 v12 : IVec si w)
    (hx : ∀ i, Cert.RealEntries.IsReal (x i)) (i : s.Idx) :
    Cert.RealEntries.IsReal (Host.scatterAdd (F := Ideal) (φ := .f32) d
      (broadcastInDim s ![] hb (constant (F := Ideal) ⟨0, ![]⟩ .f32 0x00000000#32)) v12 (Host.gather g x v9) i) := by
  unfold Host.scatterAdd
  simp only [Ideal.hostScatterAdd_def]
  unfold Ideal.hostScatterAdd
  exact Cert.RealEntries.IsReal.add (zeroSplat_isReal hb i) (Cert.RealEntries.IsReal.sum _ _ fun j _ => hx _)

/-- Every entry of the aggregate is a real when every entry of the feature array is. -/
theorem aggTerm_isReal (x : (⟨S100000x64, .f32⟩ : BufTy).Contents (Elt Ideal)) (e : (⟨S2x1000000, .i32⟩ : BufTy).Contents (Elt Ideal))
    (hx : ∀ i, Cert.RealEntries.IsReal (x i)) : ∀ i, Cert.RealEntries.IsReal (aggTerm x e i) :=
  fun i => scatterAdd_gather_isReal _ _ _ x _ _ hx i

end Cert.KernelIdeal.Hand

end
-- ==== Proof.KI.Glue1.lean ====
/-
  What the second stretch of host operations of the kernel's program leaves, read at one column.

  From the column sums `s` and the column sums of squares `q` the program forms the mean `s / n`, the variance
  `q / n − (s / n)²`, the scale `γ · (variance + ε)^(-1/2)` and the shift `β − mean · scale`, all as one-row matrices;
  `n` and `ε` are the f32 words the program spells.  The perceptron's output array is not touched.
-/
import proofs.«107690_j12764642804257_1_alg».proof.Proof.Gen.KernelIdeal.Regions
import proofs.«107690_j12764642804257_1_alg».proof.Proof.Spec
import Idealize.ShloMosaic.Lib.StableHlo.Run
import Idealize.ShloMosaic.Lib.ValueLayout
import Idealize.ShloMosaic.Lib.IdealHost

noncomputable section

namespace Cert.KernelIdeal.Hand

open Idealize.ShloMosaic Idealize.ShloMosaic.TcCoe Idealize.ShloMosaic.ValueIdx Cert.KernelIdeal Cert.KernelIdeal.Gen

/-- The host's reciprocal square root at an index is the extended reals' of the element. -/
private theorem hostRsqrt_apply {s : Shape} {φ : FTy} (a : FVec Ideal s φ) (i : s.Idx) :
    Host.rsqrt a i = Ideal.rsqrt (a i) := rfl

/-- The scale row at column `k`: `γ k · ((q k / n − (s k / n)²) + ε)^(-1/2)`, where `s k`, `q k`, `γ k` are the
    entries of the column sums, the column sums of squares and the scale argument. -/
theorem after1_scale (W : Valuation τ sig (Elt Ideal)) (k : Fin 64) (s q g : EReal)
    (hs : W (Proc.devRef .tc main_v16_1) (ix2 (0 : Fin 1) k) = s)
    (hq : W (Proc.devRef .tc main_v16_2) (ix2 (0 : Fin 1) k) = q)
    (hg : W (Proc.devRef .tc main_arg6) (ix1 k) = g) :
    StableHlo.after hostOps1 W (Proc.devRef .tc main_v27) (ix2 (0 : Fin 1) k)
      = g * Ideal.rsqrt ((Ideal.div q Cert.Spec.nWord - Ideal.div s Cert.Spec.nWord * Ideal.div s Cert.Spec.nWord)
          + Cert.Spec.epsWord) := by
  subst hs hq hg
  after_results_simp
  simp only [subf_apply, mulf_apply, addf_apply, hostDivf_apply, hostRsqrt_apply]
  exact congrArg₂ (· * ·)
    (shapeCast_a_1a_apply (W (Proc.devRef .tc main_arg6) : S64.Idx → EReal) shapeCasts_S64_S1x64 (0 : Fin 1) k) rfl

/-- The shift row at column `k`: `β k − (s k / n) · scale k`. -/
theorem after1_shift (W : Valuation τ sig (Elt Ideal)) (k : Fin 64) (s q g b : EReal)
    (hs : W (Proc.devRef .tc main_v16_1) (ix2 (0 : Fin 1) k) = s)
    (hq : W (Proc.devRef .tc main_v16_2) (ix2 (0 : Fin 1) k) = q)
    (hg : W (Proc.devRef .tc main_arg6) (ix1 k) = g)
    (hb : W (Proc.devRef .tc main_arg7) (ix1 k) = b) :
    StableHlo.after hostOps1 W (Proc.devRef .tc main_v30) (ix2 (0 : Fin 1) k)
      = b - Ideal.div s Cert.Spec.nWord
          * (g * Ideal.rsqrt ((Ideal.div q Cert.Spec.nWord - Ideal.div s Cert.Spec.nWord * Ideal.div s Cert.Spec.nWord)
              + Cert.Spec.epsWord)) := by
  subst hs hq hg hb
  after_results_simp
  simp only [subf_apply, mulf_apply, addf_apply, hostDivf_apply, hostRsqrt_apply]
  exact congrArg₂ (· - ·)
    (shapeCast_a_1a_apply (W (Proc.devRef .tc main_arg7) : S64.Idx → EReal) shapeCasts_S64_S1x64 (0 : Fin 1) k)
    (congrArg₂ (· * ·) rfl (congrArg₂ (· * ·)
      (shapeCast_a_1a_apply (W (Proc.devRef .tc main_arg6) : S64.Idx → EReal) shapeCasts_S64_S1x64 (0 : Fin 1) k) rfl))

/-- The second stretch leaves every buffer it does not write as it was. -/
theorem after1_keep (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

/-- In particular the perceptron's output array. -/
theorem after1_keep_v16_0 (W : Valuation τ sig (Elt Ideal)) :
    StableHlo.after hostOps1 W (Proc.devRef .tc main_v16_0) = W (Proc.devRef .tc main_v16_0) :=
  after1_keep W main_v16_0 (by decide)

end Cert.KernelIdeal.Hand

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.KI.Reg1Value.lean ====
/-
  The value half of the second pallas_call (the scale-shift-relu pass), at the ideal values.

  The call's output array, after all 20 grid points, as ONE function of the three arrays the call finds on entry:
  with a the [100000,64] input, s the [1,64] scale row and b the [1,64] shift row,

      out (r, k) = max (a (r, k) * s (0, k) + b (0, k)) 0.

  Three steps.  (1) The body's stored value at an entry of a block: the identity casts drop out, a one-row operand
  broadcast down the rows reads its row 0 at the entry's column, the arithmetic is the extended reals', and the
  zero splat is 0.  (2) Point t reads the block of rows 5000 t … 5000 t + 4999 of a and writes the same rows of the
  output, while the two rows' blocks are the whole rows at every point; so what point t writes back is exactly the
  restriction of out to its block.  (3) The blocks cover the array (row r lies in the block of point r / 5000), so
  the array ends holding out.
-/
import proofs.«107690_j12764642804257_1_alg».proof.Proof.KI.Reg1
import proofs.«107690_j12764642804257_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The payload at an entry

At the ideal values the stored value at row p, column q of a block is
max (x0 (p, q) * scale (0, q) + shift (0, q)) 0: the identity casts drop out, each one-row operand broadcast down the
5000 rows reads its row 0 at the column, and the zero splat is the extended real 0. -/

/-- One entry of the result from the three entries it depends on. -/
abbrev entryOf (a s b : EReal) : EReal := max (a * s + b) 0

theorem pay_apply (x0 : Vec Ideal S5000x64 .f32) (x1 x2 : Vec Ideal S1x64 .f32) (p : Fin 5000) (q : Fin 64) :
    (k1_pay1 x0 x1 x2 : S5000x64.Idx → EReal) (ix2 p q)
      = entryOf (x0 (ix2 p q)) (x1 (ix2 (0 : Fin 1) q)) (x2 (ix2 (0 : Fin 1) q)) := by
  unfold k1_pay1
  simp only [shapeCast_self]
  rw [maximumf_apply, addf_apply, mulf_apply, broadcast_apply,
    broadcastTo_1b_ab_apply x1 broadcasts_S1x64_S5000x64 p q,
    broadcastTo_1b_ab_apply x2 broadcasts_S1x64_S5000x64 p q]
  show max _ (Ideal.ofBits .f32 0x00000000#32) = _
  rw [Ideal.ofBits_zero_f32]

/-- The same at any index of the block, the column read off the index. -/
theorem pay_at (x0 : Vec Ideal S5000x64 .f32) (x1 x2 : Vec Ideal S1x64 .f32) (y : S5000x64.Idx) :
    (k1_pay1 x0 x1 x2 : S5000x64.Idx → EReal) y
      = entryOf (x0 y) (x1 (ix2 (0 : Fin 1) (y 1))) (x2 (ix2 (0 : Fin 1) (y 1))) := by
  obtain ⟨p, q, rfl⟩ : ∃ (p : Fin 5000) (q : Fin 64), y = ix2 p q := ⟨y 0, y 1, eq_ix2 y⟩
  exact pay_apply x0 x1 x2 p q

/-! ## From blocks to the array -/

/-- The output array as one function of the input array a, the scale row s and the shift row b: entry (r, k) is
    max (a (r, k) * s (0, k) + b (0, k)) 0. -/
abbrev scaleShiftRelu (a : S100000x64.Idx → EReal) (s b : S1x64.Idx → EReal) : S100000x64.Idx → EReal :=
  fun j => max (a j * s (ix2 (0 : Fin 1) (j 1)) + b (ix2 (0 : Fin 1) (j 1))) 0

section Array
variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the grid: point t reads and writes the block of rows 5000 t … 5000 t + 4999 (block
    index (t, 0)); the two rows' block index is (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of scaleShiftRelu of the entry arrays. -/
theorem flushed_eq (c : Dev nD) (t : Fin cfg1.N) :
    (dat1 (F := Ideal) V c).flushed 3 t
      = ((cfg1.win 3).blk t).view.read (Elt Ideal) (scaleShiftRelu (V c main_v16_0) (V c main_v27) (V c main_v30)) := by
  show (cfg1.win 3).cut (grid1.coords t) ((dat1 V c).after 3 t) = _
  rw [after1_3]
  unfold out1_3
  rw [View.canon_unit_zero zeroOff]
  simp only [View.ld_unit_zero (S := S5000x64) zeroOff, View.ld_unit_zero (S := S1x64) zeroOff]
  obtain ⟨e00, e01, e10, e11, e20, e21, e30, e31⟩ := idx_facts t
  funext y
  refine (pay_at _ _ _ y).trans ?_
  show entryOf (V c main_v16_0 (((cfg1.win 0).blk t).view.emb y))
      (V c main_v27 (((cfg1.win 1).blk t).view.emb (ix2 (0 : Fin 1) (y 1))))
      (V c main_v30 (((cfg1.win 2).blk t).view.emb (ix2 (0 : Fin 1) (y 1))))
    = entryOf (V c main_v16_0 (((cfg1.win 3).blk t).view.emb y))
      (V c main_v27 (ix2 (0 : Fin 1) ((((cfg1.win 3).blk t).view.emb y) 1)))
      (V c main_v30 (ix2 (0 : Fin 1) ((((cfg1.win 3).blk t).view.emb y) 1)))
  have hy0 : (y 0).val < 5000 := (y 0).isLt
  have hy1 : (y 1).val < 64 := (y 1).isLt
  have h0 : ((cfg1.win 0).blk t).view.emb y = ((cfg1.win 3).blk t).view.emb y := by
    funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 64 + 1 * (y 1).val = win1_3.index t (1 : Fin 2) * 64 + 1 * (y 1).val; omega
  have h1 : ((cfg1.win 1).blk t).view.emb (ix2 (0 : Fin 1) (y 1)) = ix2 (0 : Fin 1) ((((cfg1.win 3).blk t).view.emb y) 1) := by
    funext a; apply Fin.ext
    match a with
    | ⟨0, _⟩ => show win1_1.index t (0 : Fin 2) * 1 + 1 * 0 = 0; omega
    | ⟨1, _⟩ => show win1_1.index t (1 : Fin 2) * 64 + 1 * (y 1).val = win1_3.index t (1 : Fin 2) * 64 + 1 * (y 1).val; omega
  have h2 : ((cfg1.win 2).blk t).view.emb (ix2 (0 : Fin 1) (y 1)) = ix2 (0 : Fin 1) ((((cfg1.win 3).blk t).view.emb y) 1) := by
    funext a; apply Fin.ext
    match a with
    | ⟨0, _⟩ => show win1_2.index t (0 : Fin 2) * 1 + 1 * 0 = 0; omega
    | ⟨1, _⟩ => show win1_2.index t (1 : Fin 2) * 64 + 1 * (y 1).val = win1_3.index t (1 : Fin 2) * 64 + 1 * (y 1).val; omega
  rw [h0, h1, h2]
  rfl

/-- An index of the array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v31).slice (win1_3.rect t)).set ↔ _
  rw [View.set_slice_whole, Rect.mem_set_unit]
  exact Iff.rfl

/-- Every index of the array is in some point's block: row r is in the block of point r / 5000. -/
theorem cover (i : S100000x64.Idx) : ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  refine ⟨⟨(i 0).val / 5000, by rw [hN]; omega⟩, flush1_3 _, ?_⟩
  rw [mem_blk]
  obtain ⟨-, -, -, -, -, -, e30, e31⟩ := idx_facts ⟨(i 0).val / 5000, by rw [hN]; omega⟩
  intro a
  match a with
  | ⟨0, _⟩ =>
    show win1_3.index ⟨(i 0).val / 5000, _⟩ (0 : Fin 2) * 5000 ≤ (i 0).val ∧ (i 0).val < win1_3.index ⟨(i 0).val / 5000, _⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, _⟩ (1 : Fin 2) * 64 ≤ (i 1).val ∧ (i 1).val < win1_3.index ⟨(i 0).val / 5000, _⟩ (1 : Fin 2) * 64 + 64
    rw [e31]; omega

/-- The output array after the call: scaleShiftRelu of the three entry arrays. -/
theorem final1_3 (c : Dev nD) :
    (dat1 (F := Ideal) V c).arrAt 3 cfg1.N = scaleShiftRelu (V c main_v16_0) (V c main_v27) (V c main_v30) :=
  (dat1 V c).arrAt_eq_of_cover 3 (scaleShiftRelu (V c main_v16_0) (V c main_v27) (V c main_v30)) (fun t _ => flushed_eq V c t) cover

/-- The same read at row r, column k. -/
theorem final1_3_at (c : Dev nD) (r : Fin 100000) (k : Fin 64) :
    (dat1 (F := Ideal) V c).arrAt 3 cfg1.N (ix2 r k)
      = entryOf (V c main_v16_0 (ix2 r k)) (V c main_v27 (ix2 (0 : Fin 1) k)) (V c main_v30 (ix2 (0 : Fin 1) k)) :=
  congrFun (final1_3 V c) (ix2 r k)

end Array

end Cert.KernelIdeal.Hand
end
-- ==== Proof.KI.KValueCore.lean ====
/-
  The kernel program's value, from the contents at the boundaries, with no run in sight.

  Two stretches of host operations surround the first call.  The stretch before it forms the neighbour aggregate and
  re-lays the two bias vectors as one-row matrices, so the perceptron the call computes on those contents is the
  specification's perceptron of the launch arguments.  The stretch after it forms, column by column, the scale and the
  shift from the column sums and the column sums of squares the call leaves; the second call's entry
  max (z · scale + shift) 0 is then the specification's normalisation through E[z²] − E[z]².
-/
import proofs.«107690_j12764642804257_1_alg».proof.Proof.KI.Glue0
import proofs.«107690_j12764642804257_1_alg».proof.Proof.KI.Glue1
import proofs.«107690_j12764642804257_1_alg».proof.Proof.KI.Reg1Value
import proofs.«107690_j12764642804257_1_alg».proof.Proof.Spec

noncomputable section

namespace Cert.KernelIdeal.Hand

open Idealize.ShloMosaic Idealize.ShloMosaic.TcCoe Idealize.ShloMosaic.ValueIdx Cert.KernelIdeal Cert.KernelIdeal.Gen

/-! ### The perceptron depends on its bias rows only through their 64 entries -/

theorem mlpAt_congr_bias (h : Cert.Spec.Mat) (W1 : Cert.Spec.Wt) (b1 b1' : Cert.Spec.Row) (W2 : Cert.Spec.Wt)
    (b2 b2' : Cert.Spec.Row) (h1 : ∀ k : Fin 64, b1 (ix1 k) = b1' (ix1 k)) (h2 : ∀ k : Fin 64, b2 (ix1 k) = b2' (ix1 k))
    (r : Fin 100000) (c : Fin 64) :
    Cert.Spec.mlpAt h W1 b1 W2 b2 r c = Cert.Spec.mlpAt h W1 b1' W2 b2' r c := by
  unfold Cert.Spec.mlpAt Cert.Spec.hidden
  rw [h2 c]
  exact congrArg (· + b2' (ix1 c)) (Finset.sum_congr rfl fun k _ => by rw [h1 k])

/-! ### Before the first call -/

/-- On the contents the first stretch leaves, the perceptron of "features plus aggregate" with any bias rows that
    read the re-laid biases is the specification's perceptron output of the launch arguments. -/
theorem zOf_of_after0 (W : Valuation τ sig (Elt Ideal)) (X A : Cert.Spec.Mat) (W1 W2 : Cert.Spec.Wt) (B1 B2 : Cert.Spec.Row)
    (hX : X = StableHlo.after hostOps0 W (Proc.devRef .tc main_arg0))
    (hA : A = StableHlo.after hostOps0 W (Proc.devRef .tc main_v13))
    (hW1 : W1 = StableHlo.after hostOps0 W (Proc.devRef .tc main_arg2))
    (hW2 : W2 = StableHlo.after hostOps0 W (Proc.devRef .tc main_arg4))
    (hB1 : ∀ k : Fin 64, B1 (ix1 k) = StableHlo.after hostOps0 W (Proc.devRef .tc main_v14) (ix2 (0 : Fin 1) k))
    (hB2 : ∀ k : Fin 64, B2 (ix1 k) = StableHlo.after hostOps0 W (Proc.devRef .tc main_v15) (ix2 (0 : Fin 1) k))
    (r : Fin 100000) (k : Fin 64) :
    Cert.Spec.mlpAt (fun i => X i + A i) W1 B1 W2 B2 r k
      = Cert.Spec.zOf (W (Proc.devRef .tc main_arg0)) (aggTerm (W (Proc.devRef .tc main_arg0)) (W (Proc.devRef .tc main_arg1)))
          (W (Proc.devRef .tc main_arg2)) (W (Proc.devRef .tc main_arg3)) (W (Proc.devRef .tc main_arg4))
          (W (Proc.devRef .tc main_arg5)) r k := by
  rw [after0_keep_arg0] at hX
  rw [after0_agg] at hA
  rw [after0_keep_arg2] at hW1
  rw [after0_keep_arg4] at hW2
  subst hX hA hW1 hW2
  unfold Cert.Spec.zOf
  exact mlpAt_congr_bias _ _ _ _ _ _ _ (fun k => (hB1 k).trans (after0_b1 W k)) (fun k => (hB2 k).trans (after0_b2 W k)) r k

/-! ### After the first call -/

/-- On contents `W` in which the first call's three outputs hold a matrix `Z`, its column sums and its column sums of
    squares, the entry the second call computes from what the second stretch leaves is the specification's
    normalisation of `Z` through E[z²] − E[z]². -/
theorem kOut_of_after1 (W : Valuation τ sig (Elt Ideal)) (Z : Fin 100000 → Fin 64 → EReal) (γ β : Fin 64 → EReal)
    (h6 : ∀ (r : Fin 100000) (k : Fin 64), W (Proc.devRef .tc main_v16_0) (ix2 r k) = Z r k)
    (h7 : ∀ k : Fin 64, W (Proc.devRef .tc main_v16_1) (ix2 (0 : Fin 1) k) = ∑ r : Fin 100000, Z r k)
    (h8 : ∀ k : Fin 64, W (Proc.devRef .tc main_v16_2) (ix2 (0 : Fin 1) k) = ∑ r : Fin 100000, Z r k * Z r k)
    (hγ : ∀ k : Fin 64, W (Proc.devRef .tc main_arg6) (ix1 k) = γ k)
    (hβ : ∀ k : Fin 64, W (Proc.devRef .tc main_arg7) (ix1 k) = β k) (r : Fin 100000) (k : Fin 64) :
    entryOf (StableHlo.after hostOps1 W (Proc.devRef .tc main_v16_0) (ix2 r k))
        (StableHlo.after hostOps1 W (Proc.devRef .tc main_v27) (ix2 (0 : Fin 1) k))
        (StableHlo.after hostOps1 W (Proc.devRef .tc main_v30) (ix2 (0 : Fin 1) k))
      = Cert.Spec.kOut Z γ β r k := by
  rw [after1_keep_v16_0, h6 r k, after1_scale W k _ _ _ (h7 k) (h8 k) (hγ k),
    after1_shift W k _ _ _ _ (h7 k) (h8 k) (hγ k) (hβ k)]
  rfl

end Cert.KernelIdeal.Hand

end
-- ==== Proof.KI.R0Pieces.lean ====
/-
  What each case of the first pallas_call's body leaves, as the body's own arithmetic: the perceptron output's block is the
  perceptron of the point's input blocks; the sum accumulator is what it held (zero at the first point) plus the block's column
  sums, the square-sum accumulator likewise with the squares; at the last point the two statistics outputs receive the two
  accumulators' new contents.  Each is read off the stores the run found: a whole-buffer store, last, leaves its payload, and a
  whole-buffer load after it reads that payload.
-/
import proofs.«107690_j12764642804257_1_alg».proof.Proof.KI.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl

theorem out0_A_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  first
    | rw [View.canon_unit_zero (S := S5000x64) hz2]
    | rw [View.canon_cons_unit_zero (S := S5000x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_A_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x3 x4 x5 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_A_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay4 x0 x1 x2 x3 x4 x5) (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem out0_B_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  first
    | rw [View.canon_unit_zero (S := S5000x64) hz2]
    | rw [View.canon_cons_unit_zero (S := S5000x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_B_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_B_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem out0_C_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  first
    | rw [View.canon_unit_zero (S := S5000x64) hz2]
    | rw [View.canon_cons_unit_zero (S := S5000x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem out0_C_7_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem out0_C_8_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_C_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

theorem sout0_C_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  first
    | rw [View.canon_unit_zero (S := S1x64) hz2]
    | rw [View.canon_cons_unit_zero (S := S1x64) hz2]
  simp only [View.readAt_eq_ld, harg1.read_unread, harg2.read_unread, harg3.read_unread, harg4.read_unread, harg5.read_unread, harg6.read_unread, harg10.read_unread, harg11.read_unread,
    View.readCov_unit_zero (S := S1x64) _ hz2, View.ld_unit_zero (S := S5000x64) hz2, View.ld_unit_zero (S := S64x64) hz2, View.ld_unit_zero (S := S1x64) hz2]
  try rfl

end Cert.KernelIdeal.Hand

end
-- ==== Proof.KI.R0After.lean ====
/-
  The first pallas_call's proof data in the body's own arithmetic.  After the body at ANY point the perceptron output's buffer
  holds the perceptron of that point's input blocks.  The two scratch accumulators after position n are a recurrence over the
  positions: the sum accumulator is the block's column sums added to what position n − 1 left (to zero at position 0), the
  square-sum accumulator likewise; and at the last point the two statistics outputs' buffers hold those accumulators.
-/
import proofs.«107690_j12764642804257_1_alg».proof.Proof.KI.R0Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section After
variable (V : (c : Dev nD) → (b : Ref sig .tc) → Buf (Elt F) ((c : Thread nD τ).loc b))

/-- After the body at any point, the perceptron output's buffer is the perceptron of the point's six input blocks. -/
theorem after0_6_pay (c : Dev nD) (t : Fin cfg0.N) :
    (dat0 V c).after 6 t = k0_pay4 (iblk0 V c 0 t) (iblk0 V c 1 t) (iblk0 V c 2 t) (iblk0 V c 3 t) (iblk0 V c 4 t) (iblk0 V c 5 t) := by
  rw [after0_6]
  by_cases h0 : t.val = 0
  · rw [outsAt0_A V c t h0]; dsimp only; rw [out0_A_6_eq]
  · by_cases h1 : t.val = 19
    · rw [outsAt0_C V c t h1]; dsimp only; rw [out0_C_6_eq]
    · rw [outsAt0_B V c t h0 h1]; dsimp only; rw [out0_B_6_eq]

/-- The sum accumulator and the square-sum accumulator after position `n`. -/
def accS (c : Dev nD) (n : ℕ) (hn : n < cfg0.N) : Vec F S1x64 .f32 := (outsAt0 V c n hn).2.2.2.1
def accQ (c : Dev nD) (n : ℕ) (hn : n < cfg0.N) : Vec F S1x64 .f32 := (outsAt0 V c n hn).2.2.2.2

theorem accS_zero (c : Dev nD) (hn : 0 < cfg0.N) :
    accS V c 0 hn = k0_pay5 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay2 (F := F)) := by
  unfold accS
  rw [show outsAt0 V c 0 hn = outsAt0 V c (⟨0, hn⟩ : Fin cfg0.N).val (⟨0, hn⟩ : Fin cfg0.N).isLt from rfl, outsAt0_A V c ⟨0, hn⟩ rfl]
  dsimp only; rw [sout0_A_0_eq]

theorem accQ_zero (c : Dev nD) (hn : 0 < cfg0.N) :
    accQ V c 0 hn = k0_pay1 (k0_pay4 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (k0_pay3 (F := F)) := by
  unfold accQ
  rw [show outsAt0 V c 0 hn = outsAt0 V c (⟨0, hn⟩ : Fin cfg0.N).val (⟨0, hn⟩ : Fin cfg0.N).isLt from rfl, outsAt0_A V c ⟨0, hn⟩ rfl]
  dsimp only; rw [sout0_A_1_eq]

theorem accS_succ (c : Dev nD) (n : ℕ) (hn : n + 1 < cfg0.N) :
    accS V c (n + 1) hn = k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (accS V c n (Nat.lt_of_succ_lt hn)) := by
  unfold accS
  rw [show outsAt0 V c (n + 1) hn = outsAt0 V c (⟨n + 1, hn⟩ : Fin cfg0.N).val (⟨n + 1, hn⟩ : Fin cfg0.N).isLt from rfl]
  by_cases h1 : n + 1 = 19
  · rw [outsAt0_C V c ⟨n + 1, hn⟩ h1]; dsimp only; rw [sout0_C_0_eq]; rfl
  · rw [outsAt0_B V c ⟨n + 1, hn⟩ (Nat.succ_ne_zero n) h1]; dsimp only; rw [sout0_B_0_eq]; rfl

theorem accQ_succ (c : Dev nD) (n : ℕ) (hn : n + 1 < cfg0.N) :
    accQ V c (n + 1) hn = k0_pay1 (k0_pay4 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (accQ V c n (Nat.lt_of_succ_lt hn)) := by
  unfold accQ
  rw [show outsAt0 V c (n + 1) hn = outsAt0 V c (⟨n + 1, hn⟩ : Fin cfg0.N).val (⟨n + 1, hn⟩ : Fin cfg0.N).isLt from rfl]
  by_cases h1 : n + 1 = 19
  · rw [outsAt0_C V c ⟨n + 1, hn⟩ h1]; dsimp only; rw [sout0_C_1_eq]; rfl
  · rw [outsAt0_B V c ⟨n + 1, hn⟩ (Nat.succ_ne_zero n) h1]; dsimp only; rw [sout0_B_1_eq]; rfl

/-- At the last point the column-sum output's buffer holds the sum accumulator's new contents, -/
theorem after0_7_last (c : Dev nD) (t : Fin cfg0.N) (h : t.val = 19) : (dat0 V c).after 7 t = accS V c t.val t.isLt := by
  unfold accS
  rw [after0_7, outsAt0_C V c t h]
  dsimp only; rw [out0_C_7_eq, sout0_C_0_eq]

/-- and the column-square-sum output's buffer the square-sum accumulator's. -/
theorem after0_8_last (c : Dev nD) (t : Fin cfg0.N) (h : t.val = 19) : (dat0 V c).after 8 t = accQ V c t.val t.isLt := by
  unfold accQ
  rw [after0_8, outsAt0_C V c t h]
  dsimp only; rw [out0_C_8_eq, sout0_C_1_eq]

end After

end Cert.KernelIdeal.Hand

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.KI.R0Pay.lean ====
/-
  The first kernel's body, read at an index on the extended reals.

  At each grid point the body holds a block of 5000 rows.  It adds the two input blocks, multiplies the sum by the first
  weight matrix, adds the first bias along every row and takes the maximum with 0; multiplies the result by the second
  weight matrix and adds the second bias: entry (p, q) of the stored block is
      ∑ₖ max (∑ᵢ (x0(p,i) + x1(p,i)) · W1(i,k) + b1(k)) 0 · W2(k,q) + b2(q).
  (The roundings to the narrower format on the way into each product are the identity on the extended reals.)  It then
  adds to a one-row accumulator the block's column sums, and to a second one the column sums of the block's squares; at
  the first grid point the two accumulators are set to zero.
-/
import proofs.«107690_j12764642804257_1_alg».proof.Proof.Gen.KernelIdeal.Skeleton
import proofs.«107690_j12764642804257_1_alg».proof.Proof.Spec
import proofs.«107690_j12764642804257_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The kernel's dimension numbers are the plain ones: rows by columns, contracted over the left operand's columns. -/
theorem dot_plain : dot_S5000x64_S64x64_S5000x64_1_0_0_1_n_n = DotDims.plain 5000 64 64 := rfl

/-- The scalar zero word denotes the real number 0. -/
theorem scalar_zero : (Scalar.ofBits (F := Ideal) .f32 0x00000000#32 : EReal) = 0 := Ideal.ofBits_zero_f32

/-- One layer: a product into the zero accumulator plus a one-row bias laid down the rows. -/
theorem layer_apply {φ₁ φ₂ : FTy} (A : FVec Ideal S5000x64 φ₁) (B : FVec Ideal S64x64 φ₂) (b : FVec Ideal S1x64 .f32)
    (h1 : S1x64.ShapeCasts S1x64) (hb : S1x64.Broadcasts S5000x64) (p : Fin 5000) (q : Fin 64) :
    addf (matmul dot_S5000x64_S64x64_S5000x64_1_0_0_1_n_n none A B (constant S5000x64 .f32 0x00000000#32))
      (broadcastTo S5000x64 (shapeCast S1x64 b h1) hb) (ix2 p q)
      = (∑ k : Fin 64, A (ix2 p k) * B (ix2 k q)) + b (ix2 (0 : Fin 1) q) := by
  rw [addf_apply, matmul_zero_plain_apply _ dot_plain, shapeCast_self, broadcastTo_1b_ab_apply]

theorem pay4_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k0_pay4 x0 x1 x2 x3 x4 x5 (ix2 p q)
      = (∑ k : Fin 64, max ((∑ i : Fin 64, (x0 (ix2 p i) + x1 (ix2 p i)) * x2 (ix2 i k)) + x3 (ix2 (0 : Fin 1) k)) 0
          * x4 (ix2 k q)) + x5 (ix2 (0 : Fin 1) q) := by
  unfold k0_pay4
  refine (layer_apply _ _ _ _ _ p q).trans ?_
  refine congrArg (· + x5 (ix2 (0 : Fin 1) q)) (Finset.sum_congr rfl fun k _ => ?_)
  refine congrArg (· * x4 (ix2 k q)) ?_
  show max (addf _ _ (ix2 p k)) (Scalar.ofBits (F := Ideal) .f32 0x00000000#32) = _
  rw [scalar_zero]
  refine congrArg (max · 0) ?_
  refine (layer_apply _ _ _ _ _ p k).trans ?_
  refine congrArg (· + x3 (ix2 (0 : Fin 1) k)) (Finset.sum_congr rfl fun i _ => ?_)
  refine congrArg (· * x2 (ix2 i k)) ?_
  show x0 (ix2 p i) + shapeCast S5000x64 x1 _ (ix2 p i) = _
  rw [shapeCast_self]

/-- The source index over column q of a matrix reduced along its first axis, with row p inserted, is (p, q). -/
theorem lift_col (h : S5000x64.Reduces [0] S64) (q : Fin 64) (p : Fin 5000) : h.lift (ix1 q) p = ix2 p q :=
  funext fun ax => Fin.ext (by match ax with | ⟨0, _⟩ => rfl | ⟨1, _⟩ => rfl)

/-- A column sum at the ideal values: the sum over the 5000 rows. -/
theorem colSum_apply (src : FVec Ideal S5000x64 .f32) (h : S5000x64.Reduces [0] S64) (hφ : FKind.Formats .f32)
    (hacc : (0x00000000#32 : BitVec 32) = FKind.add.neutral .f32 hφ) (q : Fin 64) :
    multiReduction .add [0] S64 src 0x00000000#32 h hφ hacc (ix1 q) = ∑ p : Fin 5000, src (ix2 p q) := by
  refine (Ideal.multiReduction_add_single src 0x00000000#32 h hφ hacc (ix1 q)).trans ?_
  show ∑ p : Fin 5000, src (h.lift (ix1 q) p) = _
  exact Finset.sum_congr rfl fun (p : Fin 5000) _ => congrArg src (lift_col h q p)

/-- A column sum cast to one row and added to a one-row accumulator, read at column q. -/
theorem accRow_apply (src : FVec Ideal S5000x64 .f32) (a : FVec Ideal S1x64 .f32) (h : S5000x64.Reduces [0] S64)
    (hφ : FKind.Formats .f32) (hacc : (0x00000000#32 : BitVec 32) = FKind.add.neutral .f32 hφ)
    (h1 : S64.ShapeCasts S1x64) (h2 : S1x64.ShapeCasts S1x64) (q : Fin 64) :
    shapeCast S1x64 (addf a (shapeCast S1x64 (multiReduction .add [0] S64 src 0x00000000#32 h hφ hacc) h1)) h2 (ix2 (0 : Fin 1) q)
      = a (ix2 0 q) + ∑ p : Fin 5000, src (ix2 p q) := by
  rw [shapeCast_self, addf_apply, shapeCast_a_1a_apply, colSum_apply]

theorem pay5_apply (x0 x1 : Vec Ideal S5000x64 .f32) (x2 : Vec Ideal S64x64 .f32) (x3 : Vec Ideal S1x64 .f32)
    (x4 : Vec Ideal S64x64 .f32) (x5 : Vec Ideal S1x64 .f32) (v26 : Vec Ideal S1x64 .f32) (q : Fin 64) :
    k0_pay5 x0 x1 x2 x3 x4 x5 v26 (ix2 (0 : Fin 1) q)
      = v26 (ix2 0 q) + ∑ p : Fin 5000, k0_pay4 x0 x1 x2 x3 x4 x5 (ix2 p q) := by
  unfold k0_pay5
  exact accRow_apply _ _ _ _ _ _ _ q

theorem pay1_apply (v24 : FVec Ideal S5000x64 .f32) (v33 : Vec Ideal S1x64 .f32) (q : Fin 64) :
    k0_pay1 v24 v33 (ix2 (0 : Fin 1) q) = v33 (ix2 0 q) + ∑ p : Fin 5000, v24 (ix2 p q) * v24 (ix2 p q) := by
  unfold k0_pay1
  exact accRow_apply (mulf v24 v24) _ _ _ _ _ _ q

theorem pay2_apply (j : S1x64.Idx) : k0_pay2 (F := Ideal) j = 0 := by
  unfold k0_pay2
  rw [shapeCast_self, broadcast_apply, scalar_zero]

theorem pay3_apply (j : S1x64.Idx) : k0_pay3 (F := Ideal) j = 0 := by
  unfold k0_pay3
  rw [shapeCast_self, broadcast_apply, scalar_zero]

end Cert.KernelIdeal.Hand

end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.KI.R0Accum.lean ====
/-
  A sum over 100000 rows accumulated in twenty consecutive blocks of 5000 rows.

  The accumulator starts from zero plus the first block's sum (or from zero), and each further step adds the next
  block's sum; after the last block it holds the sum over all rows.  Only commutativity and associativity of the sum are
  used, so this holds in any additive commutative monoid — the extended reals included, with no finiteness hypothesis.
-/
import Mathlib.Algebra.BigOperators.Fin
import Mathlib.Algebra.BigOperators.Intervals
import proofs.«107690_j12764642804257_1_alg».proof.Proof.LibBlockSum

namespace Cert.KernelIdeal.Hand

variable {M : Type*} [AddCommMonoid M]

/-- The accumulator after block `n` (blocks counted from 0), started at the first block from the zero it is
    initialised with: block `n` holds rows `5000 n` to `5000 n + 4999`. -/
def acc (g : ℕ → M) : ℕ → M
  | 0 => 0 + ∑ p : Fin 5000, g p.val
  | n + 1 => acc g n + ∑ p : Fin 5000, g (5000 * (n + 1) + p.val)

theorem acc_zero (g : ℕ → M) : acc g 0 = 0 + ∑ p : Fin 5000, g p.val := rfl

theorem acc_succ (g : ℕ → M) (n : ℕ) : acc g (n + 1) = acc g n + ∑ p : Fin 5000, g (5000 * (n + 1) + p.val) := rfl

/-- One block's sum over `Fin 5000` is its sum over the first 5000 naturals. -/
theorem block_sum (g : ℕ → M) (s : ℕ) :
    ∑ p : Fin 5000, g (5000 * s + p.val) = ∑ l ∈ Finset.range 5000, g (5000 * s + l) :=
  Fin.sum_univ_eq_sum_range (fun l => g (5000 * s + l)) 5000

/-- After block `n` the accumulator is the sum of the blocks 0 to `n`. -/
theorem acc_eq (g : ℕ → M) : ∀ n : ℕ, acc g n = ∑ s ∈ Finset.range (n + 1), ∑ l ∈ Finset.range 5000, g (5000 * s + l)
  | 0 => by
    rw [acc_zero, zero_add, Finset.sum_range_one, ← block_sum g 0]
    exact Finset.sum_congr rfl fun p _ => by rw [Nat.mul_zero, Nat.zero_add]
  | n + 1 => by
    rw [acc_succ, acc_eq g n, block_sum g (n + 1), ← Finset.sum_range_succ]

/-- After the twentieth block the accumulator is the sum over all 100000 rows. -/
theorem acc_last (g : ℕ → M) : acc g 19 = ∑ r : Fin 100000, g r.val := by
  rw [acc_eq g 19, Fin.sum_univ_eq_sum_range g 100000, show (100000 : ℕ) = 20 * 5000 from rfl,
    Cert.BlockSum.sum_range_blocks g 5000 20]

/-- The same accumulation started from zero before the first block: after `n` blocks. -/
def accFrom0 (g : ℕ → M) : ℕ → M
  | 0 => 0
  | n + 1 => accFrom0 g n + ∑ p : Fin 5000, g (5000 * n + p.val)

theorem accFrom0_zero (g : ℕ → M) : accFrom0 g 0 = 0 := rfl

theorem accFrom0_succ (g : ℕ → M) (n : ℕ) : accFrom0 g (n + 1) = accFrom0 g n + ∑ p : Fin 5000, g (5000 * n + p.val) := rfl

theorem accFrom0_eq (g : ℕ → M) : ∀ n : ℕ, accFrom0 g n = ∑ s ∈ Finset.range n, ∑ l ∈ Finset.range 5000, g (5000 * s + l)
  | 0 => by rw [accFrom0_zero, Finset.sum_range_zero]
  | n + 1 => by rw [accFrom0_succ, accFrom0_eq g n, block_sum g n, ← Finset.sum_range_succ]

/-- The two accumulations agree: after block `n`, `n + 1` blocks have been added. -/
theorem acc_eq_accFrom0 (g : ℕ → M) (n : ℕ) : acc g n = accFrom0 g (n + 1) := by
  rw [acc_eq, accFrom0_eq]

/-- After twenty blocks the accumulator started from zero is the sum over all 100000 rows. -/
theorem accFrom0_last (g : ℕ → M) : accFrom0 g 20 = ∑ r : Fin 100000, g r.val := by
  rw [← acc_eq_accFrom0, acc_last]

end Cert.KernelIdeal.Hand
-- ==== Proof.KI.R0Value.lean ====
/-
  The value half of the first pallas_call (the perceptron and the column statistics), at the ideal values.

  The call's three output arrays, after all 20 grid points, as functions of the six arrays the call finds on entry:
  the two [100000,64] inputs a0, a1, the weight matrices w1, w2 and the one-row biases b1, b2.  Write

      z (r, k) = ∑ₘ max (∑ᵢ (a0 (r, i) + a1 (r, i)) · w1 (i, m) + b1 (0, m)) 0 · w2 (m, k) + b2 (0, k)

  for the perceptron's output.  Then

      the [100000,64] output holds z,
      the first  [1,64] output holds at column k   ∑ᵣ z (r, k)            over all 100000 rows,
      the second [1,64] output holds at column k   ∑ᵣ z (r, k) · z (r, k).

  The perceptron output: point t reads rows 5000 t … 5000 t + 4999 of a0 and a1 and the whole of the four small arrays,
  and writes the same rows of the output; the stored value at row p of the block is z at row 5000 t + p; the blocks
  cover the array (row r lies in the block of point r / 5000).
  The statistics: each is written back once, at the last point, from an accumulator that every point updates by adding
  its block's column sums to what the point before left (the first point starts from zero).  By induction over the
  points the accumulator after point n is the blockwise accumulation of the column's sequence through block n, and
  after the twentieth block that is the sum over all rows.  Only the commutative-monoid laws of + are used.
-/
import proofs.«107690_j12764642804257_1_alg».proof.Proof.KI.R0Frame
import proofs.«107690_j12764642804257_1_alg».proof.Proof.KI.R0After
import proofs.«107690_j12764642804257_1_alg».proof.Proof.KI.R0Pay
import proofs.«107690_j12764642804257_1_alg».proof.Proof.KI.R0Accum
import proofs.«107690_j12764642804257_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The perceptron's output at an entry -/

/-- Entry (r, k) of the perceptron's output from the arrays the call reads: the two [100000,64] inputs a0 and a1 (added),
    the weight matrices w1, w2 and the one-row biases b1, b2. -/
abbrev zK (a0 a1 : S100000x64.Idx → EReal) (w1 : S64x64.Idx → EReal) (b1 : S1x64.Idx → EReal)
    (w2 : S64x64.Idx → EReal) (b2 : S1x64.Idx → EReal) (r : Fin 100000) (k : Fin 64) : EReal :=
  Cert.Spec.mlpAt (fun i => a0 i + a1 i) w1 (fun j => b1 (ix2 (0 : Fin 1) (j 0))) w2 (fun j => b2 (ix2 (0 : Fin 1) (j 0))) r k

/-- The stored block at (p, q) is the perceptron's output at (r, q) when the two row blocks hold row r of the inputs at
    their row p and the four small windows hold the whole weight and bias arrays. -/
theorem pay4_eq_zK (x0 x1 : Vec Ideal S5000x64 .f32) (x2 : Vec Ideal S64x64 .f32) (x3 : Vec Ideal S1x64 .f32)
    (x4 : Vec Ideal S64x64 .f32) (x5 : Vec Ideal S1x64 .f32)
    (a0 a1 : S100000x64.Idx → EReal) (w1 : S64x64.Idx → EReal) (b1 : S1x64.Idx → EReal)
    (w2 : S64x64.Idx → EReal) (b2 : S1x64.Idx → EReal) (p : Fin 5000) (q : Fin 64) (r : Fin 100000)
    (h0 : ∀ i : Fin 64, x0 (ix2 p i) = a0 (ix2 r i)) (h1 : ∀ i : Fin 64, x1 (ix2 p i) = a1 (ix2 r i))
    (h2 : x2 = w1) (h3 : x3 = b1) (h4 : x4 = w2) (h5 : x5 = b2) :
    k0_pay4 x0 x1 x2 x3 x4 x5 (ix2 p q) = zK a0 a1 w1 b1 w2 b2 r q := by
  subst h2; subst h3; subst h4; subst h5
  rw [pay4_apply]
  simp only [h0, h1]
  rfl

/-- The same at any index of the block and of the array. -/
theorem pay4_at (x0 x1 : Vec Ideal S5000x64 .f32) (x2 : Vec Ideal S64x64 .f32) (x3 : Vec Ideal S1x64 .f32)
    (x4 : Vec Ideal S64x64 .f32) (x5 : Vec Ideal S1x64 .f32)
    (a0 a1 : S100000x64.Idx → EReal) (w1 : S64x64.Idx → EReal) (b1 : S1x64.Idx → EReal)
    (w2 : S64x64.Idx → EReal) (b2 : S1x64.Idx → EReal) (y : S5000x64.Idx) (j : S100000x64.Idx)
    (h0 : ∀ i : Fin 64, x0 (ix2 (y 0) i) = a0 (ix2 (j 0) i)) (h1 : ∀ i : Fin 64, x1 (ix2 (y 0) i) = a1 (ix2 (j 0) i))
    (h2 : x2 = w1) (h3 : x3 = b1) (h4 : x4 = w2) (h5 : x5 = b2) (hq : (y 1).val = (j 1).val) :
    k0_pay4 x0 x1 x2 x3 x4 x5 y = zK a0 a1 w1 b1 w2 b2 (j 0) (j 1) := by
  obtain ⟨p, q, rfl⟩ : ∃ (p : Fin 5000) (q : Fin 64), y = ix2 p q := ⟨y 0, y 1, eq_ix2 y⟩
  obtain ⟨r, k, rfl⟩ : ∃ (r : Fin 100000) (k : Fin 64), j = ix2 r k := ⟨j 0, j 1, eq_ix2 j⟩
  obtain rfl : q = k := Fin.ext hq
  exact pay4_eq_zK x0 x1 x2 x3 x4 x5 a0 a1 w1 b1 w2 b2 p q r h0 h1 h2 h3 h4 h5

/-! ## From blocks to the arrays -/

/-- The perceptron's output array as one function of the arrays the call reads. -/
abbrev mlpArray (a0 a1 : S100000x64.Idx → EReal) (w1 : S64x64.Idx → EReal) (b1 : S1x64.Idx → EReal)
    (w2 : S64x64.Idx → EReal) (b2 : S1x64.Idx → EReal) : S100000x64.Idx → EReal :=
  fun j => zK a0 a1 w1 b1 w2 b2 (j 0) (j 1)

section Array
variable (V : (c : Dev nD) → (b : Ref sig .tc) → Buf (Elt Ideal) ((c : Thread nD τ).loc b))

/-- The perceptron's output at (r, k) from the entry arrays. -/
abbrev zAt (c : Dev nD) (r : Fin 100000) (k : Fin 64) : EReal :=
  zK (V c main_arg0) (V c main_v13) (V c main_arg2) (V c main_v14) (V c main_arg4) (V c main_v15) r k

/-- The printed index maps over the grid: point t reads and writes block row t of the three [100000,64] arrays; every
    other window's block index is (0, 0) at every point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A window whose block is its whole array holds the array at every point. -/
theorem iblk0_2 (c : Dev nD) (t : Fin cfg0.N) : iblk0 V c 2 t = V c main_arg2 := by
  obtain ⟨-, -, -, -, e0, e1, -⟩ := idx_facts0 t
  funext y
  show V c main_arg2 (((cfg0.win 2).blk t).view.emb y) = V c main_arg2 y
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem iblk0_3 (c : Dev nD) (t : Fin cfg0.N) : iblk0 V c 3 t = V c main_v14 := by
  obtain ⟨-, -, -, -, -, -, e0, e1, -⟩ := idx_facts0 t
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem iblk0_4 (c : Dev nD) (t : Fin cfg0.N) : iblk0 V c 4 t = V c main_arg4 := by
  obtain ⟨-, -, -, -, -, -, -, -, e0, e1, -⟩ := idx_facts0 t
  funext y
  show V c main_arg4 (((cfg0.win 4).blk t).view.emb y) = V c main_arg4 y
  refine congrArg (V c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem iblk0_5 (c : Dev nD) (t : Fin cfg0.N) : iblk0 V c 5 t = V c main_v15 := by
  obtain ⟨-, -, -, -, -, -, -, -, -, -, e0, e1, -⟩ := idx_facts0 t
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Row p of point t's block of a [100000,64] input is row 5000 t + p of the array. -/
theorem iblk0_0_row (c : Dev nD) (t : Fin cfg0.N) (p : Fin 5000) (i : Fin 64) (r : Fin 100000) (hr : r.val = 5000 * t.val + p.val) :
    iblk0 V c 0 t (ix2 p i) = V c main_arg0 (ix2 r i) := by
  obtain ⟨e0, e1, -⟩ := idx_facts0 t
  show V c main_arg0 (((cfg0.win 0).blk t).view.emb (ix2 p i)) = V c main_arg0 (ix2 r i)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * i.val = i.val; omega
theorem iblk0_1_row (c : Dev nD) (t : Fin cfg0.N) (p : Fin 5000) (i : Fin 64) (r : Fin 100000) (hr : r.val = 5000 * t.val + p.val) :
    iblk0 V c 1 t (ix2 p i) = V c main_v13 (ix2 r i) := by
  obtain ⟨-, -, e0, e1, -⟩ := idx_facts0 t
  show V c main_v13 (((cfg0.win 1).blk t).view.emb (ix2 p i)) = V c main_v13 (ix2 r i)
  refine congrArg (V c main_v13) (funext fun a => Fin.ext ?_)
  match a with
  | ⟨0, _⟩ => show win0_1.index t (0 : Fin 2) * 5000 + 1 * p.val = r.val; omega
  | ⟨1, _⟩ => show win0_1.index t (1 : Fin 2) * 64 + 1 * i.val = i.val; omega

/-- THE BLOCK: the body's stored value at (p, q) of point t's block is the perceptron's output at row 5000 t + p. -/
theorem pay4_block (c : Dev nD) (t : Fin cfg0.N) (p : Fin 5000) (q : Fin 64) (r : Fin 100000) (hr : r.val = 5000 * t.val + p.val) :
    k0_pay4 (iblk0 V c 0 t) (iblk0 V c 1 t) (iblk0 V c 2 t) (iblk0 V c 3 t) (iblk0 V c 4 t) (iblk0 V c 5 t) (ix2 p q)
      = zAt V c r q :=
  pay4_eq_zK _ _ _ _ _ _ _ _ _ _ _ _ p q r (fun i => iblk0_0_row V c t p i r hr) (fun i => iblk0_1_row V c t p i r hr)
    (iblk0_2 V c t) (iblk0_3 V c t) (iblk0_4 V c t) (iblk0_5 V c t)

/-- An index of the perceptron output array is in point t's block iff each coordinate is in the block's range. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16_0).slice (win0_6.rect t)).set ↔ _
  rw [View.set_slice_whole, Rect.mem_set_unit]
  exact Iff.rfl

/-- Every index of the array is in some point's block: row r is in the block of point r / 5000. -/
theorem cover6 (i : S100000x64.Idx) : ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 20 := N_0
  refine ⟨⟨(i 0).val / 5000, by rw [hN]; omega⟩, flush0_6 _, ?_⟩
  rw [mem_blk6]
  obtain ⟨-, -, -, -, -, -, -, -, -, -, -, -, e0, e1, -⟩ := idx_facts0 ⟨(i 0).val / 5000, by rw [hN]; omega⟩
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, _⟩ (1 : Fin 2) * 64 ≤ (i 1).val ∧ (i 1).val < win0_6.index ⟨(i 0).val / 5000, _⟩ (1 : Fin 2) * 64 + 64
    rw [e1]; omega

/-- What point t writes back to the perceptron output array is block t of mlpArray of the entry arrays. -/
theorem flushed6_eq (c : Dev nD) (t : Fin cfg0.N) :
    (dat0 (F := Ideal) V c).flushed 6 t = ((cfg0.win 6).blk t).view.read (Elt Ideal)
      (mlpArray (V c main_arg0) (V c main_v13) (V c main_arg2) (V c main_v14) (V c main_arg4) (V c main_v15)) := by
  show (cfg0.win 6).cut (grid0.coords t) ((dat0 V c).after 6 t) = _
  rw [after0_6_pay V c t]
  obtain ⟨-, -, -, -, -, -, -, -, -, -, -, -, e0, e1, -⟩ := idx_facts0 t
  funext y
  have hy0 : (y 0).val < 5000 := (y 0).isLt
  have hy1 : (y 1).val < 64 := (y 1).isLt
  have hr : ((((cfg0.win 6).blk t).view.emb y) 0).val = 5000 * t.val + (y 0).val := by
    show win0_6.index t (0 : Fin 2) * 5000 + 1 * (y 0).val = 5000 * t.val + (y 0).val; omega
  have hq : (y 1).val = ((((cfg0.win 6).blk t).view.emb y) 1).val := by
    show (y 1).val = win0_6.index t (1 : Fin 2) * 64 + 1 * (y 1).val; omega
  exact pay4_at (iblk0 V c 0 t) (iblk0 V c 1 t) (iblk0 V c 2 t) (iblk0 V c 3 t) (iblk0 V c 4 t) (iblk0 V c 5 t)
    (V c main_arg0) (V c main_v13) (V c main_arg2) (V c main_v14) (V c main_arg4) (V c main_v15) y (((cfg0.win 6).blk t).view.emb y)
    (fun i => iblk0_0_row V c t (y 0) i _ hr) (fun i => iblk0_1_row V c t (y 0) i _ hr)
    (iblk0_2 V c t) (iblk0_3 V c t) (iblk0_4 V c t) (iblk0_5 V c t) hq

/-- The perceptron output array after the call. -/
theorem final0_6_arr (c : Dev nD) :
    (dat0 (F := Ideal) V c).arrAt 6 cfg0.N
      = mlpArray (V c main_arg0) (V c main_v13) (V c main_arg2) (V c main_v14) (V c main_arg4) (V c main_v15) :=
  (dat0 V c).arrAt_eq_of_cover 6 _ (fun t _ => flushed6_eq V c t) cover6

/-- The same at row r, column k. -/
theorem final0_6 (c : Dev nD) (r : Fin 100000) (k : Fin 64) :
    (dat0 (F := Ideal) V c).arrAt 6 cfg0.N (ix2 r k) = zAt V c r k :=
  congrFun (final0_6_arr V c) (ix2 r k)

/-! ## The two column statistics

The two one-row outputs are written back once, at the last point, from two accumulators: each point adds its block's
column sums (of the perceptron's output, and of its squares) to what the point before left, the first point starting from
zero.  Column k of the perceptron's output as a function of the row number — zero past the last row — makes the
accumulation the blockwise sum of one sequence. -/

/-- Column k of the perceptron's output by row number, zero past the last row. -/
def colOf (c : Dev nD) (k : Fin 64) : ℕ → EReal := fun ρ => if hρ : ρ < 100000 then zAt V c ⟨ρ, hρ⟩ k else 0
/-- Its square. -/
def colSqOf (c : Dev nD) (k : Fin 64) : ℕ → EReal :=
  fun ρ => if hρ : ρ < 100000 then zAt V c ⟨ρ, hρ⟩ k * zAt V c ⟨ρ, hρ⟩ k else 0

theorem sum_colOf (c : Dev nD) (k : Fin 64) : ∑ r : Fin 100000, colOf V c k r.val = ∑ r : Fin 100000, zAt V c r k :=
  Finset.sum_congr rfl fun r _ => by unfold colOf; rw [dif_pos r.isLt]
theorem sum_colSqOf (c : Dev nD) (k : Fin 64) :
    ∑ r : Fin 100000, colSqOf V c k r.val = ∑ r : Fin 100000, zAt V c r k * zAt V c r k :=
  Finset.sum_congr rfl fun r _ => by unfold colSqOf; rw [dif_pos r.isLt]

/-- Point t's block's column sum is the sequence's sum over rows 5000 t … 5000 t + 4999. -/
theorem blockSum (c : Dev nD) (t : Fin cfg0.N) (k : Fin 64) :
    ∑ p : Fin 5000, k0_pay4 (iblk0 V c 0 t) (iblk0 V c 1 t) (iblk0 V c 2 t) (iblk0 V c 3 t) (iblk0 V c 4 t) (iblk0 V c 5 t) (ix2 p k)
      = ∑ p : Fin 5000, colOf V c k (5000 * t.val + p.val) :=
  Finset.sum_congr rfl fun p _ => by
    have ht : t.val < 20 := lt_of_lt_of_eq t.isLt (show cfg0.N = 20 from N_0)
    have hlt : 5000 * t.val + p.val < 100000 := by have := p.isLt; omega
    unfold colOf; rw [dif_pos hlt]
    exact pay4_block V c t p k ⟨_, hlt⟩ rfl
theorem blockSumSq (c : Dev nD) (t : Fin cfg0.N) (k : Fin 64) :
    ∑ p : Fin 5000, k0_pay4 (iblk0 V c 0 t) (iblk0 V c 1 t) (iblk0 V c 2 t) (iblk0 V c 3 t) (iblk0 V c 4 t) (iblk0 V c 5 t) (ix2 p k)
        * k0_pay4 (iblk0 V c 0 t) (iblk0 V c 1 t) (iblk0 V c 2 t) (iblk0 V c 3 t) (iblk0 V c 4 t) (iblk0 V c 5 t) (ix2 p k)
      = ∑ p : Fin 5000, colSqOf V c k (5000 * t.val + p.val) :=
  Finset.sum_congr rfl fun p _ => by
    have ht : t.val < 20 := lt_of_lt_of_eq t.isLt (show cfg0.N = 20 from N_0)
    have hlt : 5000 * t.val + p.val < 100000 := by have := p.isLt; omega
    unfold colSqOf; rw [dif_pos hlt, pay4_block V c t p k ⟨_, hlt⟩ rfl]

/-- The sum accumulator after position n, at column k, is the blockwise accumulation of column k. -/
theorem accS_col (c : Dev nD) (k : Fin 64) (S : (n : ℕ) → n < cfg0.N → Vec Ideal S1x64 .f32)
    (hS0 : ∀ h : 0 < cfg0.N, S 0 h = k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)))
    (hSs : ∀ (n : ℕ) (h : n + 1 < cfg0.N), S (n + 1) h = k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (S n (Nat.lt_of_succ_lt h))) :
    ∀ (n : ℕ) (h : n < cfg0.N), S n h (ix2 (0 : Fin 1) k) = acc (colOf V c k) n
  | 0, h => by
    rw [hS0 h, pay5_apply, pay2_apply, acc_zero, blockSum V c ⟨0, h⟩ k]
    exact congrArg (0 + ·) (Finset.sum_congr rfl fun p _ => by rw [Nat.mul_zero, Nat.zero_add])
  | n + 1, h => by
    rw [hSs n h, pay5_apply, accS_col c k S hS0 hSs n (Nat.lt_of_succ_lt h), acc_succ, blockSum V c ⟨n + 1, h⟩ k]

/-- The sum-of-squares accumulator likewise. -/
theorem accQ_col (c : Dev nD) (k : Fin 64) (Q : (n : ℕ) → n < cfg0.N → Vec Ideal S1x64 .f32)
    (hQ0 : ∀ h : 0 < cfg0.N, Q 0 h = k0_pay1 (k0_pay4 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)) (k0_pay3 (F := Ideal)))
    (hQs : ∀ (n : ℕ) (h : n + 1 < cfg0.N), Q (n + 1) h = k0_pay1 (k0_pay4 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)) (Q n (Nat.lt_of_succ_lt h))) :
    ∀ (n : ℕ) (h : n < cfg0.N), Q n h (ix2 (0 : Fin 1) k) = acc (colSqOf V c k) n
  | 0, h => by
    rw [hQ0 h, pay1_apply, pay3_apply, acc_zero, blockSumSq V c ⟨0, h⟩ k]
    exact congrArg (0 + ·) (Finset.sum_congr rfl fun p _ => by rw [Nat.mul_zero, Nat.zero_add])
  | n + 1, h => by
    rw [hQs n h, pay1_apply, accQ_col c k Q hQ0 hQs n (Nat.lt_of_succ_lt h), acc_succ, blockSumSq V c ⟨n + 1, h⟩ k]

/-- A one-row array read at any index from its entries in row 0. -/
theorem row_at (s G : S1x64.Idx → EReal) (y j : S1x64.Idx) (hq : (y 1).val = (j 1).val)
    (h : ∀ k : Fin 64, s (ix2 (0 : Fin 1) k) = G (ix2 (0 : Fin 1) k)) : s y = G j := by
  obtain ⟨a, q, rfl⟩ : ∃ (a : Fin 1) (q : Fin 64), y = ix2 a q := ⟨y 0, y 1, eq_ix2 y⟩
  obtain ⟨b, q', rfl⟩ : ∃ (b : Fin 1) (q' : Fin 64), j = ix2 b q' := ⟨j 0, j 1, eq_ix2 j⟩
  obtain rfl : a = 0 := Subsingleton.elim _ _
  obtain rfl : b = 0 := Subsingleton.elim _ _
  obtain rfl : q = q' := Fin.ext hq
  exact h q

/-- The last grid point. -/
abbrev lastPoint : Fin cfg0.N := ⟨19, by rw [show cfg0.N = 20 from N_0]; decide⟩

theorem val_of_flush7 (t : Fin cfg0.N) (hf : (cfg0.win 7).flush t = true) : t.val = 19 := by
  have h := (flush0_7 t).mp hf
  have ht : t.val < 20 := lt_of_lt_of_eq t.isLt (show cfg0.N = 20 from N_0)
  omega
theorem val_of_flush8 (t : Fin cfg0.N) (hf : (cfg0.win 8).flush t = true) : t.val = 19 := by
  have h := (flush0_8 t).mp hf
  have ht : t.val < 20 := lt_of_lt_of_eq t.isLt (show cfg0.N = 20 from N_0)
  omega

/-- Every index of a one-row statistics array is in the last point's block (the whole array). -/
theorem cover7 (i : S1x64.Idx) : ∃ t : Fin cfg0.N, (cfg0.win 7).flush t = true ∧ i ∈ ((cfg0.win 7).blk t).view.set := by
  have hi0 : (i 0).val < 1 := idx2_lt0 i
  have hi1 : (i 1).val < 64 := idx2_lt1 i
  refine ⟨lastPoint, (flush0_7 lastPoint).mpr rfl, ?_⟩
  obtain ⟨-, -, -, -, -, -, -, -, -, -, -, -, -, -, e0, e1, -⟩ := idx_facts0 lastPoint
  show i ∈ ((View.whole main_v16_1).slice (win0_7.rect lastPoint)).set
  rw [View.set_slice_whole, Rect.mem_set_unit]
  intro a
  match a with
  | ⟨0, _⟩ => show win0_7.index lastPoint (0 : Fin 2) * 1 ≤ (i 0).val ∧ (i 0).val < win0_7.index lastPoint (0 : Fin 2) * 1 + 1; omega
  | ⟨1, _⟩ => show win0_7.index lastPoint (1 : Fin 2) * 64 ≤ (i 1).val ∧ (i 1).val < win0_7.index lastPoint (1 : Fin 2) * 64 + 64; omega
theorem cover8 (i : S1x64.Idx) : ∃ t : Fin cfg0.N, (cfg0.win 8).flush t = true ∧ i ∈ ((cfg0.win 8).blk t).view.set := by
  have hi0 : (i 0).val < 1 := idx2_lt0 i
  have hi1 : (i 1).val < 64 := idx2_lt1 i
  refine ⟨lastPoint, (flush0_8 lastPoint).mpr rfl, ?_⟩
  obtain ⟨-, -, -, -, -, -, -, -, -, -, -, -, -, -, -, -, e0, e1⟩ := idx_facts0 lastPoint
  show i ∈ ((View.whole main_v16_2).slice (win0_8.rect lastPoint)).set
  rw [View.set_slice_whole, Rect.mem_set_unit]
  intro a
  match a with
  | ⟨0, _⟩ => show win0_8.index lastPoint (0 : Fin 2) * 1 ≤ (i 0).val ∧ (i 0).val < win0_8.index lastPoint (0 : Fin 2) * 1 + 1; omega
  | ⟨1, _⟩ => show win0_8.index lastPoint (1 : Fin 2) * 64 ≤ (i 1).val ∧ (i 1).val < win0_8.index lastPoint (1 : Fin 2) * 64 + 64; omega

/-- The column sums as a one-row array, and the column sums of squares. -/
abbrev colSumRow (c : Dev nD) : S1x64.Idx → EReal := fun j => ∑ r : Fin 100000, zAt V c r (j 1)
abbrev colSqSumRow (c : Dev nD) : S1x64.Idx → EReal := fun j => ∑ r : Fin 100000, zAt V c r (j 1) * zAt V c r (j 1)

/-- The one write-back of each statistics array, at the last point, writes the column sums over all 100000 rows (of the
    perceptron's output, and of its squares). -/
theorem flushed7_eq (c : Dev nD) (t : Fin cfg0.N) (hf : (cfg0.win 7).flush t = true) :
    (dat0 (F := Ideal) V c).flushed 7 t = ((cfg0.win 7).blk t).view.read (Elt Ideal) (colSumRow V c) := by
  have h19 := val_of_flush7 t hf
  have hs : ∀ k : Fin 64, accS V c t.val t.isLt (ix2 (0 : Fin 1) k) = colSumRow V c (ix2 (0 : Fin 1) k) := fun k => by
    refine (accS_col V c k (accS V c) (accS_zero V c) (accS_succ V c) t.val t.isLt).trans ?_
    rw [h19, acc_last]
    exact sum_colOf V c k
  show (cfg0.win 7).cut (grid0.coords t) ((dat0 V c).after 7 t) = _
  rw [after0_7_last V c t h19]
  generalize accS V c t.val t.isLt = s at hs ⊢
  generalize colSumRow V c = G at hs ⊢
  obtain ⟨-, -, -, -, -, -, -, -, -, -, -, -, -, -, e0, e1, -⟩ := idx_facts0 t
  funext y
  have hy1 : (y 1).val < 64 := (y 1).isLt
  have hq : (y 1).val = ((((cfg0.win 7).blk t).view.emb y) 1).val := by
    show (y 1).val = win0_7.index t (1 : Fin 2) * 64 + 1 * (y 1).val; omega
  show s y = G (((cfg0.win 7).blk t).view.emb y)
  exact row_at s G y (((cfg0.win 7).blk t).view.emb y) hq hs
theorem flushed8_eq (c : Dev nD) (t : Fin cfg0.N) (hf : (cfg0.win 8).flush t = true) :
    (dat0 (F := Ideal) V c).flushed 8 t = ((cfg0.win 8).blk t).view.read (Elt Ideal) (colSqSumRow V c) := by
  have h19 := val_of_flush8 t hf
  have hs : ∀ k : Fin 64, accQ V c t.val t.isLt (ix2 (0 : Fin 1) k) = colSqSumRow V c (ix2 (0 : Fin 1) k) := fun k => by
    refine (accQ_col V c k (accQ V c) (accQ_zero V c) (accQ_succ V c) t.val t.isLt).trans ?_
    rw [h19, acc_last]
    exact sum_colSqOf V c k
  show (cfg0.win 8).cut (grid0.coords t) ((dat0 V c).after 8 t) = _
  rw [after0_8_last V c t h19]
  generalize accQ V c t.val t.isLt = s at hs ⊢
  generalize colSqSumRow V c = G at hs ⊢
  obtain ⟨-, -, -, -, -, -, -, -, -, -, -, -, -, -, -, -, e0, e1⟩ := idx_facts0 t
  funext y
  have hy1 : (y 1).val < 64 := (y 1).isLt
  have hq : (y 1).val = ((((cfg0.win 8).blk t).view.emb y) 1).val := by
    show (y 1).val = win0_8.index t (1 : Fin 2) * 64 + 1 * (y 1).val; omega
  show s y = G (((cfg0.win 8).blk t).view.emb y)
  exact row_at s G y (((cfg0.win 8).blk t).view.emb y) hq hs

/-- The column-sum array after the call, and the column-square-sum array. -/
theorem final0_7_arr (c : Dev nD) : (dat0 (F := Ideal) V c).arrAt 7 cfg0.N = colSumRow V c :=
  (dat0 V c).arrAt_eq_of_cover 7 _ (flushed7_eq V c) cover7
theorem final0_8_arr (c : Dev nD) : (dat0 (F := Ideal) V c).arrAt 8 cfg0.N = colSqSumRow V c :=
  (dat0 V c).arrAt_eq_of_cover 8 _ (flushed8_eq V c) cover8

/-- Column k of each. -/
theorem final0_7 (c : Dev nD) (k : Fin 64) :
    (dat0 (F := Ideal) V c).arrAt 7 cfg0.N (ix2 (0 : Fin 1) k) = ∑ r : Fin 100000, zAt V c r k :=
  congrFun (final0_7_arr V c) (ix2 (0 : Fin 1) k)
theorem final0_8 (c : Dev nD) (k : Fin 64) :
    (dat0 (F := Ideal) V c).arrAt 8 cfg0.N (ix2 (0 : Fin 1) k) = ∑ r : Fin 100000, zAt V c r k * zAt V c r k :=
  congrFun (final0_8_arr V c) (ix2 (0 : Fin 1) k)

end Array

end Cert.KernelIdeal.Hand
end
-- ==== Proof.KI.KValue.lean ====
/-
  The kernel program's result as a function of the launch arguments.

  The run leaves, in the result buffer, what the second call's write-backs leave: entry (r, k) is
  max (z · scale + shift) 0 of the first call's output z at (r, k) and the scale and shift rows at column k.  The first
  call's three outputs — the perceptron's output Z on "features plus neighbour aggregate", its column sums and its column
  sums of squares — enter first as hypotheses on the first call's arrays, then as the first call's value theorems; from
  them the result is the specification's normalisation through E[z²] − E[z]² of the specification's perceptron output of
  the launch arguments.
-/
import proofs.«107690_j12764642804257_1_alg».proof.Proof.KI.Run
import proofs.«107690_j12764642804257_1_alg».proof.Proof.KI.KValueCore
import proofs.«107690_j12764642804257_1_alg».proof.Proof.KI.R0Value

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- An argument no stretch and no call writes is, at the first call's exit, as launched. -/
theorem Wv2_arg6 (c : Dev nD) : Wv2 m ρ c (Proc.devRef .tc main_arg6) = m ((c.tc : Thread nD τ).loc main_arg6) :=
  (Wv2_of_ne m ρ c main_arg6 (by decide)).trans (after0_keep_arg6 (Wv0 m ρ c))

theorem Wv2_arg7 (c : Dev nD) : Wv2 m ρ c (Proc.devRef .tc main_arg7) = m ((c.tc : Thread nD τ).loc main_arg7) :=
  (Wv2_of_ne m ρ c main_arg7 (by decide)).trans (after0_keep_arg7 (Wv0 m ρ c))

/-- The result buffer at (r, k), from the first call's three output arrays: the specification's normalisation through
    E[z²] − E[z]² of whatever matrix `Z` the first output holds, given that the other two hold its column sums and its
    column sums of squares. -/
theorem kvalue_at (c : Dev nD) (Z : Fin 100000 → Fin 64 → EReal)
    (h6 : ∀ (r : Fin 100000) (k : Fin 64), (dat0 (F := Ideal) (Vv1 m ρ) c).arrAt 6 cfg0.N (ix2 r k) = Z r k)
    (h7 : ∀ k : Fin 64, (dat0 (F := Ideal) (Vv1 m ρ) c).arrAt 7 cfg0.N (ix2 (0 : Fin 1) k) = ∑ r : Fin 100000, Z r k)
    (h8 : ∀ k : Fin 64, (dat0 (F := Ideal) (Vv1 m ρ) c).arrAt 8 cfg0.N (ix2 (0 : Fin 1) k) = ∑ r : Fin 100000, Z r k * Z r k)
    (r : Fin 100000) (k : Fin 64) :
    Wv4 m ρ c (Proc.devRef .tc main_v31) (ix2 r k)
      = Cert.Spec.kOut Z (fun k => m ((c.tc : Thread nD τ).loc main_arg6) (ix1 k))
          (fun k => m ((c.tc : Thread nD τ).loc main_arg7) (ix1 k)) r k := by
  have e1 : Wv4 m ρ c (Proc.devRef .tc main_v31) = (dat1 (Vv3 m ρ) c).arrAt 3 cfg1.N := Wv4_arr m ρ c 3
  rw [e1, final1_3_at (Vv3 m ρ) c r k]
  exact kOut_of_after1 (Wv2 m ρ c) Z _ _
    (fun r k => (congrFun (Wv2_arr m ρ c 6) (ix2 r k)).trans (h6 r k))
    (fun k => (congrFun (Wv2_arr m ρ c 7) (ix2 (0 : Fin 1) k)).trans (h7 k))
    (fun k => (congrFun (Wv2_arr m ρ c 8) (ix2 (0 : Fin 1) k)).trans (h8 k))
    (fun k => congrFun (Wv2_arg6 m ρ c) (ix1 k)) (fun k => congrFun (Wv2_arg7 m ρ c) (ix1 k)) r k

/-- The result buffer as a function of the launch arguments: the specification's kernel-side output on the features, the
    neighbour aggregate of the features and the edges, the weights, the biases, the scale and the shift — given that the
    first call's outputs hold the perceptron's output on the first call's entry contents (with any bias rows that read
    the re-laid biases), its column sums and its column sums of squares. -/
theorem kvalue_of (c : Dev nD) (X A : Cert.Spec.Mat) (W1 W2 : Cert.Spec.Wt) (B1 B2 : Cert.Spec.Row)
    (hX : X = Vv1 m ρ c main_arg0) (hA : A = Vv1 m ρ c main_v13) (hW1 : W1 = Vv1 m ρ c main_arg2)
    (hW2 : W2 = Vv1 m ρ c main_arg4)
    (hB1 : ∀ k : Fin 64, B1 (ix1 k) = Vv1 m ρ c main_v14 (ix2 (0 : Fin 1) k))
    (hB2 : ∀ k : Fin 64, B2 (ix1 k) = Vv1 m ρ c main_v15 (ix2 (0 : Fin 1) k))
    (h6 : ∀ (r : Fin 100000) (k : Fin 64), (dat0 (F := Ideal) (Vv1 m ρ) c).arrAt 6 cfg0.N (ix2 r k)
      = Cert.Spec.mlpAt (fun i => X i + A i) W1 B1 W2 B2 r k)
    (h7 : ∀ k : Fin 64, (dat0 (F := Ideal) (Vv1 m ρ) c).arrAt 7 cfg0.N (ix2 (0 : Fin 1) k)
      = ∑ r : Fin 100000, Cert.Spec.mlpAt (fun i => X i + A i) W1 B1 W2 B2 r k)
    (h8 : ∀ k : Fin 64, (dat0 (F := Ideal) (Vv1 m ρ) c).arrAt 8 cfg0.N (ix2 (0 : Fin 1) k)
      = ∑ r : Fin 100000, Cert.Spec.mlpAt (fun i => X i + A i) W1 B1 W2 B2 r k
          * Cert.Spec.mlpAt (fun i => X i + A i) W1 B1 W2 B2 r k) :
    Wv4 m ρ c (Proc.devRef .tc main_v31)
      = Cert.Spec.outK (m ((c.tc : Thread nD τ).loc main_arg0))
          (aggTerm (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext j
  obtain ⟨r, k, rfl⟩ : ∃ (r : Fin 100000) (k : Fin 64), j = ix2 r k := ⟨j 0, j 1, eq_ix2 j⟩
  have hZ : Cert.Spec.mlpAt (fun i => X i + A i) W1 B1 W2 B2
      = Cert.Spec.zOf (m ((c.tc : Thread nD τ).loc main_arg0))
          (aggTerm (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) :=
    funext fun r => funext fun k => zOf_of_after0 (Wv0 m ρ c) X A W1 W2 B1 B2 hX hA hW1 hW2 hB1 hB2 r k
  rw [kvalue_at m ρ c _ h6 h7 h8 r k, hZ]
  rfl

/-- THE KERNEL PROGRAM'S VALUE: the result buffer is the specification's kernel-side output of the launch arguments. -/
theorem kvalue (c : Dev nD) :
    Wv4 m ρ c (Proc.devRef .tc main_v31)
      = Cert.Spec.outK (m ((c.tc : Thread nD τ).loc main_arg0))
          (aggTerm (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  kvalue_of m ρ c (Vv1 m ρ c main_arg0) (Vv1 m ρ c main_v13) (Vv1 m ρ c main_arg2) (Vv1 m ρ c main_arg4)
    (fun j => Vv1 m ρ c main_v14 (ix2 (0 : Fin 1) (j 0))) (fun j => Vv1 m ρ c main_v15 (ix2 (0 : Fin 1) (j 0)))
    rfl rfl rfl rfl (fun _ => rfl) (fun _ => rfl) (final0_6 (Vv1 m ρ) c) (final0_7 (Vv1 m ρ) c) (final0_8 (Vv1 m ρ) c)

end Cert.KernelIdeal.Hand

end
-- ==== Proof.Ref.Ops.lean ====
/-
  The reference program's @main as a list of its 76 host operations, the three outlined functions' bodies written out
  at their calls over the calls' own buffers, and its run: every weakly fair execution terminates with each buffer at
  the fold of the operations over the launch contents.  The list is also cut into four consecutive stretches — the
  neighbour aggregation, the perceptron, the column statistics, the normalisation — whose folds are read separately.
-/
import proofs.«107690_j12764642804257_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 76 operations in order, the calls unfolded. -/
abbrev ops : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v18) main_call0.v0 main_call0.v1 maximumf,
    binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v23 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v25 (broadcastInDim S64 ![] bcast_S_S64 : (⟨S_, .f32⟩ : BufTy).Contents (Elt F) → (⟨S64, .f32⟩ : BufTy).Contents (Elt F)),
    binary main_v24 main_v25 main_v26 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (.of main_v23) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v23) main_call1.v4 main_call1.v5 subf,
    TRef.binary main_call1.v5 main_call1.v5 main_call1.v6 mulf,
    TRef.unary (.of main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v26 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v23 main_v29 main_v30 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v31 (broadcastInDim S64 ![] bcast_S_S64 : (⟨S_, .f32⟩ : BufTy).Contents (Elt F) → (⟨S64, .f32⟩ : BufTy).Contents (Elt F)),
    binary main_v27 main_v31 main_v32 (addf : (⟨S64, .f32⟩ : BufTy).Contents (Elt F) → (⟨S64, .f32⟩ : BufTy).Contents (Elt F) → (⟨S64, .f32⟩ : BufTy).Contents (Elt F)),
    unary main_v32 main_v33 (Host.rsqrt : (⟨S64, .f32⟩ : BufTy).Contents (Elt F) → (⟨S64, .f32⟩ : BufTy).Contents (Elt F)),
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v30 main_v35 main_v36 (mulf : (⟨S100000x64, .f32⟩ : BufTy).Contents (Elt F) → (⟨S100000x64, .f32⟩ : BufTy).Contents (Elt F) → (⟨S100000x64, .f32⟩ : BufTy).Contents (Elt F)),
    unary main_arg6 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (mulf : (⟨S100000x64, .f32⟩ : BufTy).Contents (Elt F) → (⟨S100000x64, .f32⟩ : BufTy).Contents (Elt F) → (⟨S100000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v42) main_call2.v0 main_call2.v1 maximumf ]

/-- The neighbour aggregation: the first 17 operations. -/
abbrev ops1 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The perceptron: the next 12 operations. -/
abbrev ops2 : List (HloOp τ sig (Elt F)) :=
  [ binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v18) main_call0.v0 main_call0.v1 maximumf,
    binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)) ]

/-- The column statistics: the next 28 operations. -/
abbrev ops3 : List (HloOp τ sig (Elt F)) :=
  [ nullary main_cst_1 (constant S_ .f32 0x00000000#32),
    binary main_v23 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v25 (broadcastInDim S64 ![] bcast_S_S64 : (⟨S_, .f32⟩ : BufTy).Contents (Elt F) → (⟨S64, .f32⟩ : BufTy).Contents (Elt F)),
    binary main_v24 main_v25 main_v26 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (.of main_v23) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (.of main_v23) main_call1.v4 main_call1.v5 subf,
    TRef.binary main_call1.v5 main_call1.v5 main_call1.v6 mulf,
    TRef.unary (.of main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The normalisation and the closing relu: the last 19 operations. -/
abbrev ops4 : List (HloOp τ sig (Elt F)) :=
  [ unary main_v26 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v23 main_v29 main_v30 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v31 (broadcastInDim S64 ![] bcast_S_S64 : (⟨S_, .f32⟩ : BufTy).Contents (Elt F) → (⟨S64, .f32⟩ : BufTy).Contents (Elt F)),
    binary main_v27 main_v31 main_v32 (addf : (⟨S64, .f32⟩ : BufTy).Contents (Elt F) → (⟨S64, .f32⟩ : BufTy).Contents (Elt F) → (⟨S64, .f32⟩ : BufTy).Contents (Elt F)),
    unary main_v32 main_v33 (Host.rsqrt : (⟨S64, .f32⟩ : BufTy).Contents (Elt F) → (⟨S64, .f32⟩ : BufTy).Contents (Elt F)),
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v30 main_v35 main_v36 (mulf : (⟨S100000x64, .f32⟩ : BufTy).Contents (Elt F) → (⟨S100000x64, .f32⟩ : BufTy).Contents (Elt F) → (⟨S100000x64, .f32⟩ : BufTy).Contents (Elt F)),
    unary main_arg6 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (mulf : (⟨S100000x64, .f32⟩ : BufTy).Contents (Elt F) → (⟨S100000x64, .f32⟩ : BufTy).Contents (Elt F) → (⟨S100000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v42) main_call2.v0 main_call2.v1 maximumf ]

theorem ops_split : (ops : List (HloOp τ sig (Elt F))) = ops1 ++ (ops2 ++ (ops3 ++ ops4)) := rfl

/-- @main is that straight line: with the functions' definitions unfolded at their calls and sequencing reassociated,
    both sides are one chain of steps; the two sides are equal by unfolding alone. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Terms.lean ====
/-
  The reference program's value as a term of its eight arguments, in four pieces that follow the program's text:
  the neighbour aggregation (a segment sum of gathered rows), the two-layer perceptron on `x + A`, the column
  statistics (mean, and the centred second moment over the row count less zero degrees of freedom, selected against
  a not-a-number word by a comparison that always holds), and the normalisation with its closing relu.
-/
import proofs.«107690_j12764642804257_1_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The arrays' types: a 100000 × 64 float matrix, a 64 × 64 weight, a 64-vector. -/
abbrev TMat : Type := (⟨S100000x64, .f32⟩ : BufTy).Contents (Elt Ideal)
abbrev TW : Type := (⟨S64x64, .f32⟩ : BufTy).Contents (Elt Ideal)
abbrev TRow : Type := (⟨S64, .f32⟩ : BufTy).Contents (Elt Ideal)

/-- The neighbour aggregation: row 0 of the edge table is the sources, row 1 the destinations; a negative source is
    wrapped by the row count; the sources' rows of `x` are gathered and summed into the zero matrix at the
    destinations. -/
def aggTerm (x : (⟨S100000x64, .f32⟩ : BufTy).Contents (Elt Ideal)) (e : (⟨S2x1000000, .i32⟩ : BufTy).Contents (Elt Ideal)) :
    (⟨S100000x64, .f32⟩ : BufTy).Contents (Elt Ideal) :=
  let v0 : (⟨S1x1000000, .i32⟩ : BufTy).Contents (Elt Ideal) := extractStridedSlice S1x1000000 ![0, 0] e slices_S2x1000000_S1x1000000_0_0
  let v1 : (⟨S1000000, .i32⟩ : BufTy).Contents (Elt Ideal) := shapeCast S1000000 v0 shapeCasts_S1x1000000_S1000000
  let v2 : (⟨S1x1000000, .i32⟩ : BufTy).Contents (Elt Ideal) := extractStridedSlice S1x1000000 ![1, 0] e slices_S2x1000000_S1x1000000_1_0
  let v3 : (⟨S1000000, .i32⟩ : BufTy).Contents (Elt Ideal) := shapeCast S1000000 v2 shapeCasts_S1x1000000_S1000000
  let v4 : (⟨S1000000, .i32⟩ : BufTy).Contents (Elt Ideal) := broadcastInDim S1000000 ![] bcast_S_S1000000 (constantI S_ 32 0#32)
  let v5 : (⟨S1000000, .i1⟩ : BufTy).Contents (Elt Ideal) := cmpi .slt v1 v4
  let v6 : (⟨S1000000, .i32⟩ : BufTy).Contents (Elt Ideal) := broadcastInDim S1000000 ![] bcast_S_S1000000 (constantI S_ 32 100000#32)
  let v7 : (⟨S1000000, .i32⟩ : BufTy).Contents (Elt Ideal) := addi v1 v6
  let v8 : (⟨S1000000, .i32⟩ : BufTy).Contents (Elt Ideal) := select v5 v7 v1
  let v9 : (⟨S1000000x1, .i32⟩ : BufTy).Contents (Elt Ideal) := broadcastInDim S1000000x1 ![0] bcast_S1000000_S1000000x1_0 v8
  let v10 : (⟨S1000000x64, .f32⟩ : BufTy).Contents (Elt Ideal) := Host.gather gather_S100000x64_S1000000x1_S1000000x64_1_0_n_n_0_1_164 x v9
  let v11 : (⟨S100000x64, .f32⟩ : BufTy).Contents (Elt Ideal) := broadcastInDim S100000x64 ![] bcast_S_S100000x64 (constant (F := Ideal) S_ .f32 0x00000000#32)
  let v12 : (⟨S1000000x1, .i32⟩ : BufTy).Contents (Elt Ideal) := broadcastInDim S1000000x1 ![0] bcast_S1000000_S1000000x1_0 v3
  Host.scatterAdd (F := Ideal) (φ := .f32) scatter_S100000x64_S1000000x1_S1000000x64_1_0_0_1 v11 v12 v10

/-- A 64-vector laid along every row. -/
def rowsOf (b : TRow) : TMat :=
  broadcastInDim S100000x64 ![0, 1] bcast_S1x64_S100000x64_0_1 (broadcastInDim S1x64 ![1] bcast_S64_S1x64_1 b)

/-- The zero matrix a relu compares with. -/
def zeroMat : TMat := broadcastInDim S100000x64 ![] bcast_S_S100000x64 (constant (F := Ideal) S_ .f32 0x00000000#32)

/-- The perceptron on `x + A`: `relu ((x + A) · W1 + b1) · W2 + b2`. -/
def mlpT (x A : TMat) (W1 : TW) (b1 : TRow) (W2 : TW) (b2 : TRow) : TMat :=
  let h : TMat := addf (F := Ideal) (φ := .f32) x A
  let d1 : TMat := Host.dotGeneral (F := Ideal) (φ₁ := .f32) (φ₂ := .f32) dot_S100000x64_S64x64_S100000x64_1_0_0_1_n_n none h W1
  let a1 : TMat := addf (F := Ideal) (φ := .f32) d1 (rowsOf b1)
  let hid : TMat := maximumf (F := Ideal) (φ := .f32) a1 zeroMat
  let d2 : TMat := Host.dotGeneral (F := Ideal) (φ₁ := .f32) (φ₂ := .f32) dot_S100000x64_S64x64_S100000x64_1_0_0_1_n_n none hid W2
  addf (F := Ideal) (φ := .f32) d2 (rowsOf b2)

/-- The column sums from the zero word. -/
def colSumT (z : TMat) : TRow :=
  Host.reduceAdd (F := Ideal) (φ := .f32) z (constant (F := Ideal) S_ .f32 0x00000000#32) reducesTo_S100000x64_S64_d0 h_S_

/-- The column means: the sums over the row count's word. -/
def meanT (z : TMat) : TRow :=
  Host.divf (F := Ideal) (φ := .f32) (colSumT z) (broadcastInDim S64 ![] bcast_S_S64 (constant (F := Ideal) S_ .f32 0x47C35000#32))

/-- The row count's word less the float of the integer zero. -/
def dofT : (⟨S_, .f32⟩ : BufTy).Contents (Elt Ideal) :=
  subf (F := Ideal) (φ := .f32) (constant (F := Ideal) S_ .f32 0x47C35000#32) (sitofp (F := Ideal) .f32 (constantI S_ 32 0#32))

/-- The columns' centred second moments over that divisor, selected against the not-a-number word where the divisor
    is not positive. -/
def varT (z : TMat) : TRow :=
  let s1 : (⟨S1x64, .f32⟩ : BufTy).Contents (Elt Ideal) := broadcastInDim S1x64 ![1] bcast_S64_S1x64_1 (colSumT z)
  let n1 : (⟨S1x64, .f32⟩ : BufTy).Contents (Elt Ideal) := broadcastInDim S1x64 ![] bcast_S_S1x64 (constant (F := Ideal) S_ .f32 0x47C35000#32)
  let m1 : (⟨S1x64, .f32⟩ : BufTy).Contents (Elt Ideal) := Host.divf (F := Ideal) (φ := .f32) s1 n1
  let mb : TMat := broadcastInDim S100000x64 ![0, 1] bcast_S1x64_S100000x64_0_1 m1
  let d : TMat := subf (F := Ideal) (φ := .f32) z mb
  let sq : TMat := mulf (F := Ideal) (φ := .f32) d d
  let q : TRow := colSumT sq
  let quo : TRow := Host.divf (F := Ideal) (φ := .f32) q (broadcastInDim S64 ![] bcast_S_S64 dofT)
  let p : (⟨S_, .i1⟩ : BufTy).Contents (Elt Ideal) := cmpf (F := Ideal) (φ := .f32) .ogt dofT (constant (F := Ideal) S_ .f32 0x00000000#32)
  let w1 : TRow := broadcastInDim S64 ![] bcast_S_S64 (id (constant (F := Ideal) S_ .f32 0x7FC00000#32))
  select (broadcastInDim S64 ![] bcast_S_S64 p) quo w1

/-- The normalisation in the program's order, `((z − μ) · (v + ε)^(-1/2)) · γ + β`, and the closing relu. -/
def finalT (z : TMat) (μ v γ β : TRow) : TMat :=
  let d : TMat := subf (F := Ideal) (φ := .f32) z (rowsOf μ)
  let ve : TRow := addf (F := Ideal) (φ := .f32) v (broadcastInDim S64 ![] bcast_S_S64 (constant (F := Ideal) S_ .f32 0x3727C5AC#32))
  let rs : TRow := Host.rsqrt (F := Ideal) (φ := .f32) ve
  let t1 : TMat := mulf (F := Ideal) (φ := .f32) d (rowsOf rs)
  let t2 : TMat := mulf (F := Ideal) (φ := .f32) t1 (rowsOf γ)
  let t3 : TMat := addf (F := Ideal) (φ := .f32) t2 (rowsOf β)
  maximumf (F := Ideal) (φ := .f32) t3 zeroMat

/-- The reference's result as a term of its eight arguments. -/
def refTerm (x : TMat) (e : (⟨S2x1000000, .i32⟩ : BufTy).Contents (Elt Ideal)) (W1 : TW) (b1 : TRow) (W2 : TW) (b2 : TRow)
    (γ β : TRow) : TMat :=
  let z : TMat := mlpT x (aggTerm x e) W1 b1 W2 b2
  finalT z (meanT z) (varT z) γ β

end Cert.ReferenceIdeal.Hand

end
-- ==== Proof.Ref.Run.lean ====
/-
  What the reference's result buffer holds after the 76 operations, as a term of the launch contents of the eight
  arguments: the fold is cut at the three points where the text passes from the neighbour aggregation to the
  perceptron, to the column statistics, and to the normalisation; each stretch's fold is read at the buffers the next
  stretch uses, and the four readings compose.  The arguments' buffers are written by no operation.
-/
import proofs.«107690_j12764642804257_1_alg».proof.Proof.Ref.Ops
import proofs.«107690_j12764642804257_1_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

/-! ### The neighbour aggregation -/

theorem s1_v13 (V : Valuation τ sig (Elt Ideal)) :
    after (ops1 (F := Ideal)) V (main_v13 : DevRef τ sig) = aggTerm (V (main_arg0 : DevRef τ sig)) (V (main_arg1 : DevRef τ sig)) := by
  after_results_simp
  rfl

theorem s1_arg0 (V : Valuation τ sig (Elt Ideal)) :
    after (ops1 (F := Ideal)) V (main_arg0 : DevRef τ sig) = V (main_arg0 : DevRef τ sig) := by
  after_results_simp

theorem s1_arg2 (V : Valuation τ sig (Elt Ideal)) :
    after (ops1 (F := Ideal)) V (main_arg2 : DevRef τ sig) = V (main_arg2 : DevRef τ sig) := by
  after_results_simp

theorem s1_arg3 (V : Valuation τ sig (Elt Ideal)) :
    after (ops1 (F := Ideal)) V (main_arg3 : DevRef τ sig) = V (main_arg3 : DevRef τ sig) := by
  after_results_simp

theorem s1_arg4 (V : Valuation τ sig (Elt Ideal)) :
    after (ops1 (F := Ideal)) V (main_arg4 : DevRef τ sig) = V (main_arg4 : DevRef τ sig) := by
  after_results_simp

theorem s1_arg5 (V : Valuation τ sig (Elt Ideal)) :
    after (ops1 (F := Ideal)) V (main_arg5 : DevRef τ sig) = V (main_arg5 : DevRef τ sig) := by
  after_results_simp

theorem s1_arg6 (V : Valuation τ sig (Elt Ideal)) :
    after (ops1 (F := Ideal)) V (main_arg6 : DevRef τ sig) = V (main_arg6 : DevRef τ sig) := by
  after_results_simp

theorem s1_arg7 (V : Valuation τ sig (Elt Ideal)) :
    after (ops1 (F := Ideal)) V (main_arg7 : DevRef τ sig) = V (main_arg7 : DevRef τ sig) := by
  after_results_simp

/-! ### The perceptron -/

theorem s2_v23 (V : Valuation τ sig (Elt Ideal)) :
    after (ops2 (F := Ideal)) V (main_v23 : DevRef τ sig)
      = mlpT (V (main_arg0 : DevRef τ sig)) (V (main_v13 : DevRef τ sig)) (V (main_arg2 : DevRef τ sig)) (V (main_arg3 : DevRef τ sig)) (V (main_arg4 : DevRef τ sig)) (V (main_arg5 : DevRef τ sig)) := by
  after_results_simp
  rfl

theorem s2_arg6 (V : Valuation τ sig (Elt Ideal)) :
    after (ops2 (F := Ideal)) V (main_arg6 : DevRef τ sig) = V (main_arg6 : DevRef τ sig) := by
  after_results_simp

theorem s2_arg7 (V : Valuation τ sig (Elt Ideal)) :
    after (ops2 (F := Ideal)) V (main_arg7 : DevRef τ sig) = V (main_arg7 : DevRef τ sig) := by
  after_results_simp

/-! ### The column statistics -/

theorem s3_v26 (V : Valuation τ sig (Elt Ideal)) :
    after (ops3 (F := Ideal)) V (main_v26 : DevRef τ sig) = meanT (V (main_v23 : DevRef τ sig)) := by
  after_results_simp
  rfl

theorem s3_v27 (V : Valuation τ sig (Elt Ideal)) :
    after (ops3 (F := Ideal)) V (main_v27 : DevRef τ sig) = varT (V (main_v23 : DevRef τ sig)) := by
  after_results_simp
  rfl

theorem s3_v23 (V : Valuation τ sig (Elt Ideal)) :
    after (ops3 (F := Ideal)) V (main_v23 : DevRef τ sig) = V (main_v23 : DevRef τ sig) := by
  after_results_simp

theorem s3_arg6 (V : Valuation τ sig (Elt Ideal)) :
    after (ops3 (F := Ideal)) V (main_arg6 : DevRef τ sig) = V (main_arg6 : DevRef τ sig) := by
  after_results_simp

theorem s3_arg7 (V : Valuation τ sig (Elt Ideal)) :
    after (ops3 (F := Ideal)) V (main_arg7 : DevRef τ sig) = V (main_arg7 : DevRef τ sig) := by
  after_results_simp

/-! ### The normalisation -/

theorem s4_v43 (V : Valuation τ sig (Elt Ideal)) :
    after (ops4 (F := Ideal)) V (main_v43 : DevRef τ sig)
      = finalT (V (main_v23 : DevRef τ sig)) (V (main_v26 : DevRef τ sig)) (V (main_v27 : DevRef τ sig)) (V (main_arg6 : DevRef τ sig)) (V (main_arg7 : DevRef τ sig)) := by
  after_results_simp
  rfl

/-! ### The whole line -/

/-- The result buffer after the whole line: the four stretches' readings composed. -/
theorem out_eq (V : Valuation τ sig (Elt Ideal)) :
    after (ops (F := Ideal)) V (main_v43 : DevRef τ sig)
      = refTerm (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) := by
  rw [ops_split, StableHlo.after_append, StableHlo.after_append, StableHlo.after_append, s4_v43, s3_v26, s3_v27, s3_v23, s3_arg6,
    s3_arg7, s2_v23, s2_arg6, s2_arg7, s1_v13, s1_arg0, s1_arg2, s1_arg3, s1_arg4, s1_arg5, s1_arg6, s1_arg7]
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

/-- From any memory with zero counters every weakly fair execution of @main terminates with the result buffer at
    `refTerm` of the arguments' launch contents and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.Hand

end
-- ==== Proof.Ref.Read.lean ====
/-
  The reference's term read entry by entry.  Each stage of the text is read at an index over variable arrays: a vector
  laid along the rows reads the vector's entry; a product reads the sum over the contracted coordinate; a column
  reduction from the zero word reads the sum over the rows; a quotient by the row count's word reads the mean.  Inside
  the variance the divisor is the row count's word less the float of the integer zero, which is the real 100000, so
  the comparison with zero holds, the selection takes the quotient and the not-a-number word is never read.  The
  stages then compose to the centred normalisation of the perceptron's output on `x + A`.
-/
import proofs.«107690_j12764642804257_1_alg».proof.Proof.Ref.Terms
import proofs.«107690_j12764642804257_1_alg».proof.Proof.Spec
import proofs.«107690_j12764642804257_1_alg».proof.Proof.LibMatmulAt
import proofs.«107690_j12764642804257_1_alg».proof.Proof.LibRowBias
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.ValueIdx

/-! ### Layout and constants -/

/-- A vector laid along every row reads the vector's entry. -/
theorem rowsOf_apply (b : TRow) (r : Fin 100000) (c : Fin 64) : rowsOf b (ix2 r c) = b (ix1 c) :=
  Cert.LibRowBias.row_broadcastInDim_apply b _ _ r c

/-- A vector laid as one row reads the vector's entry. -/
theorem oneRow_apply {α : Type} (b : (⟨1, ![64]⟩ : Shape).Idx → α)
    (hd1 : (⟨1, ![64]⟩ : Shape).BroadcastsInDim ⟨2, ![1, 64]⟩ ![1]) (k : Fin 64) :
    broadcastInDim ⟨2, ![1, 64]⟩ ![1] hd1 b (ix2 (0 : Fin 1) k) = b (ix1 k) := by
  refine broadcastInDim_apply ![1] hd1 b (ix2 (0 : Fin 1) k) (ix1 k) ?_
  intro a
  match a with
  | ⟨0, _⟩ => rfl

/-- The zero matrix reads zero. -/
theorem zeroMat_apply (j : S100000x64.Idx) : zeroMat j = 0 := by
  unfold zeroMat
  rw [broadcastInDim_scalar_apply, constant_apply, Ideal.ofBits_zero_f32]

/-- The row count's word is the real 100000. -/
theorem nWord_eq : Cert.Spec.nWord = ((100000 : ℝ) : EReal) := by
  unfold Cert.Spec.nWord
  simp [Ideal.ofBits, Ideal.ieee, -EReal.coe_mul]; norm_num

/-- The product with the plain dimension numbers reads the sum over the contracted coordinate. -/
theorem dot_apply (A : TMat) (B : TW) (r : Fin 100000) (c : Fin 64) :
    Host.dotGeneral (F := Ideal) (φ₁ := .f32) (φ₂ := .f32) dot_S100000x64_S64x64_S100000x64_1_0_0_1_n_n none A B (ix2 r c)
      = ∑ k : Fin 64, A (ix2 r k) * B (ix2 k c) :=
  Cert.KernelIdeal.Hand.dotGeneral_plain_apply' _ rfl none A B (ix2 r c)

/-! ### The perceptron -/

theorem mlpT_apply (x A : TMat) (W1 : TW) (b1 : TRow) (W2 : TW) (b2 : TRow) (r : Fin 100000) (c : Fin 64) :
    mlpT x A W1 b1 W2 b2 (ix2 r c) = Cert.Spec.mlpAt (fun i => x i + A i) W1 b1 W2 b2 r c := by
  simp only [mlpT, Cert.Spec.mlpAt, Cert.Spec.hidden]
  rw [addf_apply, rowsOf_apply, dot_apply]
  refine congrArg (· + b2 (ix1 c)) (Finset.sum_congr rfl fun k _ => congrArg (· * W2 (ix2 k c)) ?_)
  rw [maximumf_apply, zeroMat_apply, addf_apply, rowsOf_apply, dot_apply]
  rfl

/-! ### The column statistics -/

/-- The column reduction from the zero word reads the sum over the rows. -/
theorem colSumT_apply (z : TMat) (c : Fin 64) : colSumT z (ix1 c) = ∑ r : Fin 100000, z (ix2 r c) := by
  unfold colSumT
  have hR : S100000x64.Reduces [0] S64 := by decide
  rw [hostReduceAdd_apply, Ideal.hostReduceAdd_single reducesTo_S100000x64_S64_d0 hR, constant_apply, Ideal.ofBits_zero_f32,
    zero_add]
  refine Finset.sum_congr rfl fun k _ => congrArg z ?_
  funext a
  match a with
  | ⟨0, _⟩ => exact Fin.ext rfl
  | ⟨1, _⟩ => exact Fin.ext rfl

theorem meanT_apply (z : TMat) (c : Fin 64) : meanT z (ix1 c) = Cert.Spec.mean (fun r c => z (ix2 r c)) c := by
  unfold meanT Cert.Spec.mean Cert.Spec.colSum Cert.Spec.nWord
  rw [hostDivf_apply, colSumT_apply, broadcastInDim_scalar_apply, constant_apply]

/-- The divisor: the row count's word less the float of the integer zero. -/
theorem dofT_apply (j : S_.Idx) : dofT j = Cert.Spec.nWord - 0 := by
  unfold dofT Cert.Spec.nWord
  rw [subf_apply, constant_apply, sitofp_apply]
  show _ - ((((0#32 : BitVec 32).toInt : ℝ)) : EReal) = _
  have h0 : (0#32 : BitVec 32).toInt = 0 := by decide
  rw [h0, Int.cast_zero, EReal.coe_zero]

/-- The divisor is positive. -/
theorem dof_pos : (0 : EReal) < Cert.Spec.nWord - 0 := by
  rw [sub_zero, nWord_eq]
  exact EReal.coe_pos.mpr (by norm_num)

theorem varT_apply (z : TMat) (c : Fin 64) : varT z (ix1 c) = Cert.Spec.rVar (fun r c => z (ix2 r c)) c := by
  simp only [varT, Cert.Spec.rVar, Cert.Spec.centSq]
  rw [select_apply, broadcastInDim_scalar_apply, cmpf_apply, Ideal.cmpf_def, dofT_apply, constant_apply, Ideal.ofBits_zero_f32]
  have hsel : Ideal.cmp .ogt (Cert.Spec.nWord - 0) 0 = 1#1 := by
    unfold Ideal.cmp
    show BitVec.ofBool (decide ((0 : EReal) < Cert.Spec.nWord - 0)) = 1#1
    rw [decide_eq_true dof_pos]
    rfl
  rw [hsel, select_one, hostDivf_apply, broadcastInDim_scalar_apply, dofT_apply, colSumT_apply]
  refine congrArg (Ideal.div · (Cert.Spec.nWord - 0)) (Finset.sum_congr rfl fun r _ => ?_)
  have hd : ∀ r : Fin 100000,
      (subf (F := Ideal) (φ := .f32) z
        (broadcastInDim S100000x64 ![0, 1] bcast_S1x64_S100000x64_0_1
          (Host.divf (F := Ideal) (φ := .f32) (broadcastInDim S1x64 ![1] bcast_S64_S1x64_1 (colSumT z))
            (broadcastInDim S1x64 ![] bcast_S_S1x64 (constant (F := Ideal) S_ .f32 0x47C35000#32)))) : TMat) (ix2 r c)
        = z (ix2 r c) - Cert.Spec.mean (fun r c => z (ix2 r c)) c := by
    intro r
    rw [subf_apply, broadcastInDim_oneRow_apply, hostDivf_apply, oneRow_apply, broadcastInDim_scalar_apply, constant_apply,
      colSumT_apply]
    rfl
  rw [mulf_apply, hd]

/-! ### The normalisation -/

theorem finalT_apply (z : TMat) (μ v γ β : TRow) (r : Fin 100000) (c : Fin 64) :
    finalT z μ v γ β (ix2 r c)
      = max ((z (ix2 r c) - μ (ix1 c)) * Ideal.rsqrt (v (ix1 c) + Cert.Spec.epsWord) * γ (ix1 c) + β (ix1 c)) 0 := by
  simp only [finalT]
  rw [maximumf_apply, zeroMat_apply, addf_apply, rowsOf_apply, mulf_apply, rowsOf_apply, mulf_apply, rowsOf_apply, subf_apply,
    rowsOf_apply]
  show max ((z (ix2 r c) - μ (ix1 c)) * FloatOps.hostUnary .rsqrt
      (addf (F := Ideal) (φ := .f32) v (broadcastInDim S64 ![] bcast_S_S64 (constant (F := Ideal) S_ .f32 0x3727C5AC#32)) (ix1 c))
      * γ (ix1 c) + β (ix1 c)) 0 = _
  rw [Ideal.hostUnary_rsqrt_def, addf_apply, broadcastInDim_scalar_apply, constant_apply]
  rfl

/-! ### The whole term -/

/-- The reference's term is the centred normalisation of the perceptron's output on `x + A`, `A` the neighbour
    aggregation. -/
theorem refTerm_eq (x : TMat) (e : (⟨S2x1000000, .i32⟩ : BufTy).Contents (Elt Ideal)) (W1 : TW) (b1 : TRow) (W2 : TW) (b2 : TRow)
    (γ β : TRow) :
    refTerm x e W1 b1 W2 b2 γ β = Cert.Spec.outR x (aggTerm x e) W1 b1 W2 b2 γ β := by
  generalize hA : aggTerm x e = A
  funext j
  obtain ⟨r, c, rfl⟩ : ∃ (r : Fin 100000) (c : Fin 64), j = ix2 r c := ⟨j 0, j 1, eq_ix2 j⟩
  have hz : (fun (r : Fin 100000) (c : Fin 64) => mlpT x A W1 b1 W2 b2 (ix2 r c)) = Cert.Spec.zOf x A W1 b1 W2 b2 := by
    funext r c
    exact mlpT_apply x A W1 b1 W2 b2 r c
  unfold refTerm Cert.Spec.outR Cert.Spec.rOut
  simp only [hA]
  have hzrc : mlpT x A W1 b1 W2 b2 (ix2 r c) = Cert.Spec.zOf x A W1 b1 W2 b2 r c := mlpT_apply x A W1 b1 W2 b2 r c
  rw [finalT_apply, meanT_apply, varT_apply, hz, hzrc]

end Cert.ReferenceIdeal.Hand

end
-- ==== Proof.Ref.Final.lean ====
/-
  The reference program's run and value together: every weakly fair execution from a memory with zero counters
  terminates, the result buffer holds the centred normalisation of the perceptron's output on `x + A` (`A` the
  neighbour aggregation of the launch contents), and the eight arguments are unchanged.
-/
import proofs.«107690_j12764642804257_1_alg».proof.Proof.Ref.Run
import proofs.«107690_j12764642804257_1_alg».proof.Proof.Ref.Read

noncomputable section

namespace Cert.ReferenceIdeal.Hand

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = Cert.Spec.outR (m ((c.tc : Thread nD τ).loc main_arg0)) (aggTerm (m ((c.tc : Thread nD τ).loc main_arg0)) (m ((c.tc : Thread nD τ).loc main_arg1)))
              (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (refTerm_eq _ _ _ _ _ _ _ _), (h c).2⟩) (run_term m ρ)

end Cert.ReferenceIdeal.Hand

end
-- ==== Proof.SpecLaw.lean ====
/-
  The algebra of the two normalisations, on the extended reals, under the hypothesis that every entry is a real
  number.

  With real entries every quantity of the layer is a real number, and the two batch normalisations agree: writing
  S = ∑ z, Q = ∑ z², n = 100000 and μ = S / n for one column, the centred second moment is
  ∑ (z − μ)² = Q − 2 μ S + n μ² = Q − n μ², so that ∑ (z − μ)² / n = Q / n − μ².  That common value v is a sum of
  squares over n, hence nonnegative; with the positive guard ε the reciprocal square root is taken at the positive real
  v + ε, where it is the real number (√(v + ε))⁻¹ = ρ.  Then z · (γ ρ) + (β − μ · (γ ρ)) = (z − μ) · ρ · γ + β in ℝ.
-/
import proofs.«107690_j12764642804257_1_alg».proof.Proof.Spec
import proofs.«107690_j12764642804257_1_alg».proof.Proof.LibRealEntries

noncomputable section

namespace Cert.Spec

open Idealize.ShloMosaic Idealize.ShloMosaic.ValueIdx Cert.RealEntries

/-! ### The two constants -/

/-- The row count's word denotes the real number 100000: sign 0, exponent 143, fraction 4411392, that is
    (2²³ + 4411392) · 2⁻⁷. -/
theorem nWord_eq : nWord = ((100000 : ℝ) : EReal) := by
  simp [nWord, Ideal.ofBits, Ideal.ieee, -EReal.coe_mul]; norm_num

/-- The guard's word denotes a positive real number (a normal number with sign bit 0). -/
theorem epsWord_pos : ∃ e : ℝ, 0 < e ∧ epsWord = (e : EReal) := by
  simp [epsWord, Ideal.ofBits, Ideal.ieee, -EReal.coe_mul]

/-! ### Real entries through the perceptron -/

/-- The larger of two real numbers is a real number. -/
theorem IsReal.max {x y : EReal} (hx : IsReal x) (hy : IsReal y) : IsReal (max x y) := by
  rcases max_choice x y with h | h <;> rw [h] <;> assumption

theorem hidden_isReal (h : Mat) (W1 : Wt) (b1 : Row) (hh : ∀ i, IsReal (h i)) (hW1 : ∀ i, IsReal (W1 i))
    (hb1 : ∀ i, IsReal (b1 i)) (r : Fin 100000) (k : Fin 64) : IsReal (hidden h W1 b1 r k) := by
  unfold hidden
  exact IsReal.max ((IsReal.sum _ _ fun i _ => (hh _).mul (hW1 _)).add (hb1 _)) isReal_zero

theorem mlpAt_isReal (h : Mat) (W1 : Wt) (b1 : Row) (W2 : Wt) (b2 : Row) (hh : ∀ i, IsReal (h i))
    (hW1 : ∀ i, IsReal (W1 i)) (hb1 : ∀ i, IsReal (b1 i)) (hW2 : ∀ i, IsReal (W2 i)) (hb2 : ∀ i, IsReal (b2 i))
    (r : Fin 100000) (c : Fin 64) : IsReal (mlpAt h W1 b1 W2 b2 r c) := by
  unfold mlpAt
  exact (IsReal.sum _ _ fun k _ => (hidden_isReal h W1 b1 hh hW1 hb1 r k).mul (hW2 _)).add (hb2 _)

/-! ### One column in the real numbers -/

/-- The mean, the variance as E[z²] − E[z]², and the variance as the mean of the centred squares, of a real column. -/
def mR (a : Fin 100000 → ℝ) : ℝ := (∑ r, a r) * (1 / 100000)
def vK (a : Fin 100000 → ℝ) : ℝ := (∑ r, a r * a r) * (1 / 100000) - mR a * mR a
def vC (a : Fin 100000 → ℝ) : ℝ := (∑ r, (a r - mR a) * (a r - mR a)) * (1 / 100000)

/-- ∑ (a − μ)² = Q − 2 μ S + n μ²; the constant μ² summed over the n rows is n μ², and S = n μ. -/
theorem vC_eq_vK (a : Fin 100000 → ℝ) : vC a = vK a := by
  have h1 : ∀ r, (a r - mR a) * (a r - mR a) = a r * a r - 2 * mR a * a r + mR a * mR a := fun r => by ring
  unfold vC vK
  rw [Finset.sum_congr rfl fun r _ => h1 r, Finset.sum_add_distrib, Finset.sum_sub_distrib, ← Finset.mul_sum,
    Finset.sum_const, Finset.card_univ, Fintype.card_fin, nsmul_eq_mul]
  unfold mR
  generalize (∑ r, a r) = S
  generalize (∑ r, a r * a r) = Q
  push_cast
  ring

theorem vC_nonneg (a : Fin 100000 → ℝ) : 0 ≤ vC a :=
  mul_nonneg (Finset.sum_nonneg fun r _ => mul_self_nonneg _) (by norm_num)

/-! ### One column of real entries on the extended reals -/

section Col
variable {z : Fin 100000 → Fin 64 → EReal} {c : Fin 64} {a : Fin 100000 → ℝ}

theorem colSum_coe (ha : ∀ r, z r c = (a r : EReal)) : colSum z c = ((∑ r, a r : ℝ) : EReal) := by
  rw [colSum, coe_sum]; exact Finset.sum_congr rfl fun r _ => ha r

theorem colSumSq_coe (ha : ∀ r, z r c = (a r : EReal)) : colSumSq z c = ((∑ r, a r * a r : ℝ) : EReal) := by
  rw [colSumSq, coe_sum]; exact Finset.sum_congr rfl fun r _ => by rw [ha r, EReal.coe_mul]

theorem mean_coe (ha : ∀ r, z r c = (a r : EReal)) : mean z c = ((mR a : ℝ) : EReal) := by
  rw [mean, nWord_eq, Ideal.div_coe (y := 100000) (by norm_num), colSum_coe ha, ← EReal.coe_mul, mR]

theorem kVar_coe (ha : ∀ r, z r c = (a r : EReal)) : kVar z c = ((vK a : ℝ) : EReal) := by
  rw [kVar, mean_coe ha, nWord_eq, Ideal.div_coe (y := 100000) (by norm_num), colSumSq_coe ha, ← EReal.coe_mul,
    ← EReal.coe_mul, ← EReal.coe_sub, vK]

theorem centSq_coe (ha : ∀ r, z r c = (a r : EReal)) :
    centSq z c = ((∑ r, (a r - mR a) * (a r - mR a) : ℝ) : EReal) := by
  rw [centSq, coe_sum]
  exact Finset.sum_congr rfl fun r _ => by rw [ha r, mean_coe ha, ← EReal.coe_sub, ← EReal.coe_mul]

theorem rVar_coe (ha : ∀ r, z r c = (a r : EReal)) : rVar z c = ((vC a : ℝ) : EReal) := by
  rw [rVar, sub_zero, nWord_eq, Ideal.div_coe (y := 100000) (by norm_num), centSq_coe ha, ← EReal.coe_mul, vC]

end Col

/-- The reciprocal square root at a positive real number is the real number (√t)⁻¹. -/
theorem rsqrt_coe_pos {t : ℝ} (ht : 0 < t) : Ideal.rsqrt (t : EReal) = (((Real.sqrt t)⁻¹ : ℝ) : EReal) := by
  rw [Ideal.rsqrt_coe, if_neg (not_lt.mpr ht.le), if_neg ht.ne']

/-! ### The two normalisations agree -/

theorem kOut_eq_rOut (z : Fin 100000 → Fin 64 → EReal) (γ β : Fin 64 → EReal) (hz : ∀ r c, IsReal (z r c))
    (hγ : ∀ c, IsReal (γ c)) (hβ : ∀ c, IsReal (β c)) (r : Fin 100000) (c : Fin 64) :
    kOut z γ β r c = rOut z γ β r c := by
  obtain ⟨g, hg⟩ := hγ c
  obtain ⟨b, hb⟩ := hβ c
  choose a ha using fun r' => hz r' c
  obtain ⟨e, he, hε⟩ := epsWord_pos
  have hpos : 0 < vK a + e := by
    have := vC_nonneg a
    rw [vC_eq_vK] at this
    linarith
  rw [kOut, rOut, kShift, kScale, kVar_coe ha, rVar_coe ha, mean_coe ha, vC_eq_vK, hε, ← EReal.coe_add,
    rsqrt_coe_pos hpos, ha r, hg, hb]
  simp only [← EReal.coe_mul, ← EReal.coe_add, ← EReal.coe_sub]
  congr 2
  ring

/-- The whole layer: with real inputs the perceptron's output is real, and the two normalisations of it agree at every
    index. -/
theorem outK_eq_outR (x A : Mat) (W1 : Wt) (b1 : Row) (W2 : Wt) (b2 : Row) (γ β : Row) (hx : ∀ i, IsReal (x i))
    (hA : ∀ i, IsReal (A i)) (hW1 : ∀ i, IsReal (W1 i)) (hb1 : ∀ i, IsReal (b1 i)) (hW2 : ∀ i, IsReal (W2 i))
    (hb2 : ∀ i, IsReal (b2 i)) (hγ : ∀ i, IsReal (γ i)) (hβ : ∀ i, IsReal (β i)) :
    outK x A W1 b1 W2 b2 γ β = outR x A W1 b1 W2 b2 γ β := by
  funext j
  unfold outK outR
  exact kOut_eq_rOut _ _ _
    (fun r c => mlpAt_isReal _ W1 b1 W2 b2 (fun i => (hx i).add (hA i)) hW1 hb1 hW2 hb2 r c)
    (fun c => hγ _) (fun c => hβ _) _ _

end Cert.Spec

end
-- ==== Proof.Finite.lean ====
/-
  From the precondition to real entries.

  The precondition is the conjunction, over the seven float arguments, of "every entry's absolute value is below +∞".
  On the extended reals the absolute value of x is max x (−x), which is +∞ at both infinities; so an entry whose absolute
  value is below +∞ is neither infinity: it is a real number.
-/
import proofs.«107690_j12764642804257_1_alg».proof.Defs
import proofs.«107690_j12764642804257_1_alg».proof.Proof.LibRealEntries
import Idealize.ShloMosaic.Lib.ReduceAll
import Idealize.ShloMosaic.Lib.ValueIdx

noncomputable section

namespace Cert.Finite

open Idealize.ShloMosaic Idealize.ShloMosaic.ValueIdx Cert.RealEntries Cert.Pre_finite_inputs

/-- The word 0x7F800000 (exponent all ones, fraction zero, sign 0) denotes +∞. -/
theorem infWord_eq : Ideal.ofBits .f32 0x7F800000#32 = (⊤ : EReal) := by
  simp [Ideal.ofBits, Ideal.ieee]

/-- An extended real whose absolute value max x (−x) compares below +∞ is a real number. -/
theorem isReal_of_abs_lt_inf (x : EReal)
    (h : Ideal.cmp .olt (max x (-x)) (Ideal.ofBits .f32 0x7F800000#32) = 1#1) : IsReal x := by
  rw [infWord_eq] at h
  induction x using EReal.rec with
  | bot => simp [Ideal.cmp] at h
  | top => simp [Ideal.cmp] at h
  | coe a => exact ⟨a, rfl⟩

instance : Subsingleton S_.Idx := ⟨fun a b => funext fun d => d.elim0⟩

/-- One conjunct: the and-reduction over all axes of the entrywise comparison |a| < +∞ being 1 makes every entry real. -/
theorem real_of_all {S : Shape} {axes : List (Fin S.rank)} (hb : S_.BroadcastsInDim S (![] : Fin 0 → Fin S.rank))
    (hr : S.ReducesTo axes S_) (hu : 0 < S_.numel) (a : FVec Ideal S .f32) (init : IVec S_ 1)
    (e : Host.reduce IntOp.andi
      (cmpf .olt (Host.absf a) (broadcastInDim S ![] hb (constant (F := Ideal) S_ .f32 0x7F800000#32))) init hr hu ix0 = 1#1)
    (i : S.Idx) : IsReal (a i) :=
  isReal_of_abs_lt_inf (a i) (Host.reduce_andi_all _ init hr hu ix0 e i)

/-- The precondition makes every entry of each of the seven float arguments a real number. -/
theorem real_of_pre [Cert.Pre_finite_inputs.Facts] (a0 : FVec Ideal S100000x64 .f32) (a1 : IVec S2x1000000 32)
    (a2 : FVec Ideal S64x64 .f32) (a3 : FVec Ideal S64 .f32) (a4 : FVec Ideal S64x64 .f32) (a5 : FVec Ideal S64 .f32)
    (a6 : FVec Ideal S64 .f32) (a7 : FVec Ideal S64 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) ∧
      (∀ i, IsReal (a6 i)) ∧ (∀ i, IsReal (a7 i)) := by
  have h0 := congrFun h ix0
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ a0 _ e0, real_of_all _ _ _ a2 _ e2, real_of_all _ _ _ a3 _ e3, real_of_all _ _ _ a4 _ e4,
    real_of_all _ _ _ a5 _ e5, real_of_all _ _ _ a6 _ e6, real_of_all _ _ _ a7 _ e7⟩

end Cert.Finite

end
-- ==== Proof.AggSame.lean ====
/-
  The neighbour aggregation is one function of the feature array and the edge table: the two programs spell it by the
  same thirteen host operations, over shapes that are the same literals and side conditions that are propositions.
-/
import proofs.«107690_j12764642804257_1_alg».proof.Proof.KI.Glue0
import proofs.«107690_j12764642804257_1_alg».proof.Proof.Ref.Terms
import proofs.«107690_j12764642804257_1_alg».proof.Proof.Spec

noncomputable section

namespace Cert.Bridge

open Idealize.ShloMosaic

set_option maxHeartbeats 50000 in
theorem aggTerm_same (x : Cert.Spec.Mat) (e : (⟨2, ![2, 1000000]⟩ : Shape).Idx → BitVec 32) :
    Cert.KernelIdeal.Hand.aggTerm x e = Cert.ReferenceIdeal.Hand.aggTerm x e := rfl

end Cert.Bridge

end
-- ==== Proof.lean ====
/-
  One layer of a graph isomorphism network with batch normalisation, proved equal on the extended reals between a
  program with two Pallas kernels and a plain reference.

  Both compute the neighbour sums `A = segment_sum (x[src], dst)` by the same host operations, `h = x + A`, and the
  perceptron `z = relu (h · W1 + b1) · W2 + b2` on 100000 rows of 64 features.  The kernel program does the perceptron in a
  first kernel over 20 blocks of 5000 rows, accumulating the column sums `S = ∑ z` and `Q = ∑ z²` in two scratch rows that
  it carries from one grid point to the next and copies out at the last; on the host it forms `μ = S/n`, `v = Q/n − μ²`,
  `scale = γ · (v + ε)^(-1/2)`, `shift = β − μ · scale`; a second kernel returns `max (z · scale + shift) 0`.  The reference
  centres first: `μ = S/n`, `v' = ∑ (z − μ)² / (n − 0)`, and returns `max ((z − μ) · (v' + ε)^(-1/2) · γ + β) 0`.

  Over the reals `∑ (z − μ)² = Q − n μ²`, so `v' = v`; it is non-negative, so `v + ε` is positive and its inverse square root is
  a real number; then `z · (γρ) + (β − μ (γρ)) = (z − μ) ρ γ + β`.  These laws need every entry to be a real number — the
  precondition gives that for the inputs, sums and products of reals are real, and a neighbour sum is a finite sum of entries
  of `x` — while the blockwise accumulation of the column sums needs only that addition is commutative and associative.

  The three frames: the kernel program (at the word level and idealized) by running its two kernels as regions between its
  stretches of host operations; the reference by its run.  Nothing was rewritten by the ideal pass, so `preserves` is trivial.
-/
import proofs.«107690_j12764642804257_1_alg».proof.Defs
import proofs.«107690_j12764642804257_1_alg».proof.Proof.Gen.Kernel
import proofs.«107690_j12764642804257_1_alg».proof.Proof.Gen.KernelIdeal
import proofs.«107690_j12764642804257_1_alg».proof.Proof.Gen.ReferenceIdeal
import proofs.«107690_j12764642804257_1_alg».proof.Proof.Gen.Pre_finite_inputs
import proofs.«107690_j12764642804257_1_alg».proof.Proof.K.Run
import proofs.«107690_j12764642804257_1_alg».proof.Proof.KI.Run
import proofs.«107690_j12764642804257_1_alg».proof.Proof.KI.KValue
import proofs.«107690_j12764642804257_1_alg».proof.Proof.Ref.Final
import proofs.«107690_j12764642804257_1_alg».proof.Proof.SpecLaw
import proofs.«107690_j12764642804257_1_alg».proof.Proof.Finite
import proofs.«107690_j12764642804257_1_alg».proof.Proof.AggSame
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The two idealized programs, from memories agreeing on the arguments, end with equal results: the kernel program's is the
    scale-and-shift form of the layer, the reference's the centred form, of the same arguments and the same neighbour sums,
    and the two forms agree where every entry is real. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0)) (Cert.KernelIdeal.Hand.aggTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run (F := Ideal) m ρ)
    exact ⟨(h c _ (Cert.KernelIdeal.Hand.mem_uc Cert.KernelIdeal.main_v31 (by decide))).trans (Cert.KernelIdeal.Hand.kvalue m ρ c),
      (h c _ (Cert.KernelIdeal.Hand.mem_uc Cert.KernelIdeal.main_arg0 (by decide))).trans (Cert.KernelIdeal.Hand.Wv4_main_arg0 m ρ c),
      (h c _ (Cert.KernelIdeal.Hand.mem_uc Cert.KernelIdeal.main_arg1 (by decide))).trans (Cert.KernelIdeal.Hand.Wv4_main_arg1 m ρ c),
      (h c _ (Cert.KernelIdeal.Hand.mem_uc Cert.KernelIdeal.main_arg2 (by decide))).trans (Cert.KernelIdeal.Hand.Wv4_main_arg2 m ρ c),
      (h c _ (Cert.KernelIdeal.Hand.mem_uc Cert.KernelIdeal.main_arg3 (by decide))).trans (Cert.KernelIdeal.Hand.Wv4_main_arg3 m ρ c),
      (h c _ (Cert.KernelIdeal.Hand.mem_uc Cert.KernelIdeal.main_arg4 (by decide))).trans (Cert.KernelIdeal.Hand.Wv4_main_arg4 m ρ c),
      (h c _ (Cert.KernelIdeal.Hand.mem_uc Cert.KernelIdeal.main_arg5 (by decide))).trans (Cert.KernelIdeal.Hand.Wv4_main_arg5 m ρ c),
      (h c _ (Cert.KernelIdeal.Hand.mem_uc Cert.KernelIdeal.main_arg6 (by decide))).trans (Cert.KernelIdeal.Hand.Wv4_main_arg6 m ρ c),
      (h c _ (Cert.KernelIdeal.Hand.mem_uc Cert.KernelIdeal.main_arg7 (by decide))).trans (Cert.KernelIdeal.Hand.Wv4_main_arg7 m ρ c)⟩
  · refine (θ_run Cert.ReferenceIdeal.defs _ _).mono (fun r h c => ⟨(h c).1.trans ?_, (h c).2⟩) (Cert.ReferenceIdeal.Hand.run m' ρ')
    obtain ⟨hx, hW1, hb1, hW2, hb2, hγ, hβ⟩ := Cert.Finite.real_of_pre _ _ _ _ _ _ _ _ (hpre c)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2, ← Cert.Bridge.aggTerm_same]
    exact (Cert.Spec.outK_eq_outR _ _ _ _ _ _ _ _ hx (Cert.KernelIdeal.Hand.aggTerm_isReal _ _ hx) hW1 hb1 hW2 hb2 hγ hβ).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
